-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S128 .f32) (main_arg7 : FVec F S128x4 .f32) (main_arg8 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg7
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x4 .f32) (main_arg8 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x4 : Shape := ⟨2, ![1, 4]⟩
abbrev S1600000x128 : Shape := ⟨2, ![1600000, 128]⟩
abbrev S100000x4 : Shape := ⟨2, ![100000, 4]⟩
abbrev S4000x128 : Shape := ⟨2, ![4000, 128]⟩
abbrev S4000x1 : Shape := ⟨2, ![4000, 1]⟩
abbrev S4000x4 : Shape := ⟨2, ![4000, 4]⟩

abbrev nBuf : Space → Nat
  | .hbm => 69
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x4, .f32⟩
  | .hbm, ⟨8, _⟩ => ⟨S4, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S1x128, .f32⟩
  | .hbm, ⟨36, _⟩ => ⟨S1x128, .f32⟩
  | .hbm, ⟨37, _⟩ => ⟨S1x4, .f32⟩
  | .hbm, ⟨38, _⟩ => ⟨S100000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .bf16⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .bf16⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x4, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S1x128, .f32⟩
  | .local _ .vmem, ⟨22, _⟩ => ⟨S128x4, .f32⟩
  | .local _ .vmem, ⟨23, _⟩ => ⟨S1x4, .f32⟩
  | .local _ .vmem, ⟨24, _⟩ => ⟨S4000x4, .f32⟩
  | .local _ .vmem, ⟨25, _⟩ => ⟨S4000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_cst_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_3 : Ref sig .tc := ⟨.hbm, 23, rfl⟩
abbrev main_call0_call1_v0 : Ref sig .tc := ⟨.hbm, 24, rfl⟩
abbrev main_call0_call1_v1 : Ref sig .tc := ⟨.hbm, 25, rfl⟩
abbrev main_call0_v8 : Ref sig .tc := ⟨.hbm, 26, rfl⟩
abbrev main_call0_cst_4 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_5 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_c : Ref sig .tc := ⟨.hbm, 39, rfl⟩
abbrev main_call0_v19 : Ref sig .tc := ⟨.hbm, 40, rfl⟩
abbrev main_call0_v20 : Ref sig .tc := ⟨.hbm, 41, rfl⟩
abbrev main_call0_c_6 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_cst_7 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_c_8 : Ref sig .tc := ⟨.hbm, 54, rfl⟩
abbrev main_call0_v31 : Ref sig .tc := ⟨.hbm, 55, rfl⟩
abbrev main_call0_v32 : Ref sig .tc := ⟨.hbm, 56, rfl⟩
abbrev main_call0_c_9 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_cst_10 : Ref sig .tc := ⟨.hbm, 64, rfl⟩
abbrev main_call0_v39 : Ref sig .tc := ⟨.hbm, 65, rfl⟩
abbrev main_call0_v40 : Ref sig .tc := ⟨.hbm, 66, rfl⟩
abbrev main_call0_v41 : Ref sig .tc := ⟨.hbm, 67, rfl⟩
abbrev main_v0 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S4_S1x4 : S4.ShapeCasts S1x4
  bitsLt_bf16_f32 : FTy.bits .bf16 < FTy.bits .f32
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  inb_S4000x4_S4000x4_0_0 : ∀ a, (![0, 0] : Fin 2 → Nat) a + S4000x4.size a ≤ S4000x4.size a
  h_S4000x4 : 0 < S4000x4.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x4_S4000x4_1_0_0_1_n_n_wf : DotDims.WF S4000x128 S128x4 S4000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x4.size a ≤ S128x4.size a
  hwx2_3 : ∀ i : grid2.Coords, EltTy.bits .f32 = 32 ∨ (Rect.block (s := S128x4) S128x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4.size a ≤ S1x4.size a
  hwx2_4 : ∀ i : grid2.Coords, EltTy.bits .f32 = 32 ∨ (Rect.block (s := S1x4) S1x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x4.size a ≤ S100000x4.size a
  hwx2_5 : ∀ i : grid2.Coords, EltTy.bits .f32 = 32 ∨ (Rect.block (s := S100000x4) S4000x4.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v11) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v30) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v14) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v17) S1x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S4000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x4 : Shape := ⟨2, ![100000, 4]⟩
abbrev S1x4 : Shape := ⟨2, ![1, 4]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x4, .f32⟩
  | .hbm, ⟨8, _⟩ => ⟨S4, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S100000x4, .f32⟩
  | .hbm, ⟨110, _⟩ => ⟨S1x4, .f32⟩
  | .hbm, ⟨111, _⟩ => ⟨S100000x4, .f32⟩
  | .hbm, ⟨112, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_14 : Ref sig .tc := ⟨.hbm, 84, rfl⟩
abbrev main_v49 : Ref sig .tc := ⟨.hbm, 85, rfl⟩
abbrev main_v50 : Ref sig .tc := ⟨.hbm, 86, rfl⟩
abbrev main_c_15 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_16 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_17 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x4_S100000x4_1_0_0_1_n_n_wf : DotDims.WF S100000x128 S128x4 S100000x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«135894_j56942676410567_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«135894_j56942676410567_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibSymNorm.lean ====
/-
  The dense stages of a graph convolution with symmetric degree normalisation, read at an entry on the extended reals.

  A graph convolution normalised by D_out^(-1/2) A D_in^(-1/2) has, between its edge-wise gather / scatter-add passes,
  dense stages on the node rows. With s an [a, 1] column of per-node scales, b a [1, f] bias row and w an [f, n]
  weight matrix, at row p:

    • the scaled features projected:            proj (p, q) = ∑ k, x (p, k) · s (p) · w (k, q);
    • an aggregate rescaled, biased, rectified: act (p, k)  = max (agg (p, k) · s_in (p) + b (k)) 0;
    • that, rescaled again and projected:       mid (p, q)  = ∑ k, act (p, k) · s_out (p) · w (k, q);
    • that, projected on the classes:           head (p, q) = (∑ k, act (p, k) · w_c (k, q)) + b_c (q).

  A tile body spells a stage with the column repeated across the lanes, the row repeated down the tile, both factors of the
  product narrowed to a shorter float format (the identity on the extended reals) and the matrix unit accumulating into
  zero; a host program spells it with broadcasts by dimension maps, `dot_general`, and a maximum with a scalar zero repeated
  everywhere, the scales and biases arriving as plain vectors. Both read, entry by entry, as the expressions above: nothing
  is distributed or cancelled, so no finiteness is needed. Every extent is generic.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«135894_j56942676410567_2_alg».proof.Proof.LibDotRecord
import proofs.«135894_j56942676410567_2_alg».proof.Proof.LibRowOps
import proofs.«135894_j56942676410567_2_alg».proof.Proof.LibHostRead
import proofs.«135894_j56942676410567_2_alg».proof.Proof.LibHostSlab

noncomputable section

namespace SymNorm

open Idealize.ShloMosaic Idealize.ShloMosaic.ValueIdx

variable {a f n : ℕ}

/-! ## The stages, entry by entry -/

/-- The scaled features of row `p` against column `q` of the weights. -/
def projAt (x : (⟨2, ![a, f]⟩ : Shape).Idx → EReal) (s : (⟨2, ![a, 1]⟩ : Shape).Idx → EReal)
    (w : (⟨2, ![f, n]⟩ : Shape).Idx → EReal) (p : Fin a) (q : Fin n) : EReal :=
  ∑ k : Fin f, x (ix2 p k) * s (ix2 p (0 : Fin 1)) * w (ix2 k q)

/-- The aggregate of row `p`, feature `k`, rescaled by the row's scale, biased and rectified. -/
def actAt (agg : (⟨2, ![a, f]⟩ : Shape).Idx → EReal) (s : (⟨2, ![a, 1]⟩ : Shape).Idx → EReal)
    (b : (⟨2, ![1, f]⟩ : Shape).Idx → EReal) (p : Fin a) (k : Fin f) : EReal :=
  max (agg (ix2 p k) * s (ix2 p (0 : Fin 1)) + b (ix2 (0 : Fin 1) k)) (Ideal.ofBits .f32 0x00000000#32)

/-- The activation of row `p`, rescaled by the row's second scale, against column `q` of the weights. -/
def midAt (agg : (⟨2, ![a, f]⟩ : Shape).Idx → EReal) (sIn : (⟨2, ![a, 1]⟩ : Shape).Idx → EReal)
    (b : (⟨2, ![1, f]⟩ : Shape).Idx → EReal) (sOut : (⟨2, ![a, 1]⟩ : Shape).Idx → EReal)
    (w : (⟨2, ![f, n]⟩ : Shape).Idx → EReal) (p : Fin a) (q : Fin n) : EReal :=
  ∑ k : Fin f, actAt agg sIn b p k * sOut (ix2 p (0 : Fin 1)) * w (ix2 k q)

/-- The activation of row `p` against column `q` of the class weights, plus the class bias. -/
def headAt (agg : (⟨2, ![a, f]⟩ : Shape).Idx → EReal) (sIn : (⟨2, ![a, 1]⟩ : Shape).Idx → EReal)
    (b : (⟨2, ![1, f]⟩ : Shape).Idx → EReal) (wc : (⟨2, ![f, n]⟩ : Shape).Idx → EReal)
    (bc : (⟨2, ![1, n]⟩ : Shape).Idx → EReal) (p : Fin a) (q : Fin n) : EReal :=
  (∑ k : Fin f, actAt agg sIn b p k * wc (ix2 k q)) + bc (ix2 (0 : Fin 1) q)

/-! ## The stages as functions of whole arrays -/

def proj (x : (⟨2, ![a, f]⟩ : Shape).Idx → EReal) (s : (⟨2, ![a, 1]⟩ : Shape).Idx → EReal)
    (w : (⟨2, ![f, n]⟩ : Shape).Idx → EReal) : (⟨2, ![a, n]⟩ : Shape).Idx → EReal :=
  fun i => projAt x s w (i 0) (i 1)

def mid (agg : (⟨2, ![a, f]⟩ : Shape).Idx → EReal) (sIn : (⟨2, ![a, 1]⟩ : Shape).Idx → EReal)
    (b : (⟨2, ![1, f]⟩ : Shape).Idx → EReal) (sOut : (⟨2, ![a, 1]⟩ : Shape).Idx → EReal)
    (w : (⟨2, ![f, n]⟩ : Shape).Idx → EReal) : (⟨2, ![a, n]⟩ : Shape).Idx → EReal :=
  fun i => midAt agg sIn b sOut w (i 0) (i 1)

def head (agg : (⟨2, ![a, f]⟩ : Shape).Idx → EReal) (sIn : (⟨2, ![a, 1]⟩ : Shape).Idx → EReal)
    (b : (⟨2, ![1, f]⟩ : Shape).Idx → EReal) (wc : (⟨2, ![f, n]⟩ : Shape).Idx → EReal)
    (bc : (⟨2, ![1, n]⟩ : Shape).Idx → EReal) : (⟨2, ![a, n]⟩ : Shape).Idx → EReal :=
  fun i => headAt agg sIn b wc bc (i 0) (i 1)

theorem proj_apply (x : (⟨2, ![a, f]⟩ : Shape).Idx → EReal) (s : (⟨2, ![a, 1]⟩ : Shape).Idx → EReal)
    (w : (⟨2, ![f, n]⟩ : Shape).Idx → EReal) (p : Fin a) (q : Fin n) : proj x s w (ix2 p q) = projAt x s w p q := rfl

theorem mid_apply (agg : (⟨2, ![a, f]⟩ : Shape).Idx → EReal) (sIn : (⟨2, ![a, 1]⟩ : Shape).Idx → EReal)
    (b : (⟨2, ![1, f]⟩ : Shape).Idx → EReal) (sOut : (⟨2, ![a, 1]⟩ : Shape).Idx → EReal)
    (w : (⟨2, ![f, n]⟩ : Shape).Idx → EReal) (p : Fin a) (q : Fin n) :
    mid agg sIn b sOut w (ix2 p q) = midAt agg sIn b sOut w p q := rfl

theorem head_apply (agg : (⟨2, ![a, f]⟩ : Shape).Idx → EReal) (sIn : (⟨2, ![a, 1]⟩ : Shape).Idx → EReal)
    (b : (⟨2, ![1, f]⟩ : Shape).Idx → EReal) (wc : (⟨2, ![f, n]⟩ : Shape).Idx → EReal)
    (bc : (⟨2, ![1, n]⟩ : Shape).Idx → EReal) (p : Fin a) (q : Fin n) :
    head agg sIn b wc bc (ix2 p q) = headAt agg sIn b wc bc p q := rfl

/-! ## A tile body's spellings -/

/-- A tile body's activation — the aggregate times the scale column repeated across the lanes, plus the bias row repeated
    down the tile, the maximum with a splat zero — read at `(p, k)`. -/
theorem act_tile_apply (x0 : FVec Ideal ⟨2, ![a, f]⟩ .f32) (x1 : FVec Ideal ⟨2, ![a, 1]⟩ .f32) (x2 : FVec Ideal ⟨2, ![1, f]⟩ .f32)
    (c0 : (⟨2, ![a, f]⟩ : Shape).ShapeCasts ⟨2, ![a, f]⟩) (c1 : (⟨2, ![a, 1]⟩ : Shape).ShapeCasts ⟨2, ![a, 1]⟩)
    (c2 : (⟨2, ![1, f]⟩ : Shape).ShapeCasts ⟨2, ![1, f]⟩)
    (hb1 : (⟨2, ![a, 1]⟩ : Shape).Broadcasts ⟨2, ![a, f]⟩) (hb2 : (⟨2, ![1, f]⟩ : Shape).Broadcasts ⟨2, ![a, f]⟩)
    (p : Fin a) (k : Fin f) :
    maximumf (addf (mulf (shapeCast ⟨2, ![a, f]⟩ x0 c0) (broadcastTo ⟨2, ![a, f]⟩ (shapeCast ⟨2, ![a, 1]⟩ x1 c1) hb1))
          (broadcastTo ⟨2, ![a, f]⟩ (shapeCast ⟨2, ![1, f]⟩ x2 c2) hb2))
        (broadcast ⟨2, ![a, f]⟩ (Scalar.ofBits (F := Ideal) .f32 0x00000000#32)) (ix2 p k)
      = actAt x0 x1 x2 p k := by
  rw [maximumf_apply, addf_apply, mulf_apply, broadcast_apply]
  simp only [shapeCast_self]
  rw [Gcn.Lib.broadcastTo_a1_ab_apply _ hb1 p k, DotRecord.broadcastTo_1b_ab_apply _ hb2 p k]
  rfl

/-- A tile body's projection of scaled features, the product's factors and its result narrowed, read at `(p, q)`. -/
theorem proj_tile_apply {ψ : FTy} (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (x0 : FVec Ideal ⟨2, ![a, f]⟩ .f32) (x1 : FVec Ideal ⟨2, ![a, 1]⟩ .f32) (x2 : FVec Ideal ⟨2, ![f, n]⟩ .f32)
    (c1 : (⟨2, ![a, 1]⟩ : Shape).ShapeCasts ⟨2, ![a, 1]⟩) (hb1 : (⟨2, ![a, 1]⟩ : Shape).Broadcasts ⟨2, ![a, f]⟩)
    (p : Fin a) (q : Fin n) :
    truncf ψ (matmul dd prec
        (truncf ψ (mulf x0 (broadcastTo ⟨2, ![a, f]⟩ (shapeCast ⟨2, ![a, 1]⟩ x1 c1) hb1)) hψ)
        (truncf ψ x2 hψ) (constant ⟨2, ![a, n]⟩ .f32 0x00000000#32)) hψ (ix2 p q)
      = projAt x0 x1 x2 p q := by
  refine (truncf_apply _ hψ (ix2 p q)).trans ?_
  refine (DotRecord.matmul_zero_apply dd h1 h2 h3 h4 h5 h6 _ _ prec p q).trans (Finset.sum_congr rfl fun k _ => ?_)
  rw [truncf_apply, truncf_apply, mulf_apply, shapeCast_self, Gcn.Lib.broadcastTo_a1_ab_apply _ hb1 p k]

/-- A tile body's middle stage — the activation times the second scale column, narrowed, against the narrowed weights
    into a zero accumulator, the result narrowed — read at `(p, q)`. -/
theorem mid_tile_apply {ψ : FTy} (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (x0 : FVec Ideal ⟨2, ![a, f]⟩ .f32) (x1 : FVec Ideal ⟨2, ![a, 1]⟩ .f32) (x2 : FVec Ideal ⟨2, ![1, f]⟩ .f32)
    (x3 : FVec Ideal ⟨2, ![a, 1]⟩ .f32) (x4 : FVec Ideal ⟨2, ![f, n]⟩ .f32)
    (c0 : (⟨2, ![a, f]⟩ : Shape).ShapeCasts ⟨2, ![a, f]⟩) (c1 : (⟨2, ![a, 1]⟩ : Shape).ShapeCasts ⟨2, ![a, 1]⟩)
    (c2 : (⟨2, ![1, f]⟩ : Shape).ShapeCasts ⟨2, ![1, f]⟩)
    (hb1 : (⟨2, ![a, 1]⟩ : Shape).Broadcasts ⟨2, ![a, f]⟩) (hb2 : (⟨2, ![1, f]⟩ : Shape).Broadcasts ⟨2, ![a, f]⟩)
    (p : Fin a) (q : Fin n) :
    truncf ψ (matmul dd prec
        (truncf ψ (mulf
          (maximumf (addf (mulf (shapeCast ⟨2, ![a, f]⟩ x0 c0) (broadcastTo ⟨2, ![a, f]⟩ (shapeCast ⟨2, ![a, 1]⟩ x1 c1) hb1))
              (broadcastTo ⟨2, ![a, f]⟩ (shapeCast ⟨2, ![1, f]⟩ x2 c2) hb2))
            (broadcast ⟨2, ![a, f]⟩ (Scalar.ofBits (F := Ideal) .f32 0x00000000#32)))
          (broadcastTo ⟨2, ![a, f]⟩ (shapeCast ⟨2, ![a, 1]⟩ x3 c1) hb1)) hψ)
        (truncf ψ x4 hψ) (constant ⟨2, ![a, n]⟩ .f32 0x00000000#32)) hψ (ix2 p q)
      = midAt x0 x1 x2 x3 x4 p q := by
  refine (truncf_apply _ hψ (ix2 p q)).trans ?_
  refine (DotRecord.matmul_zero_apply dd h1 h2 h3 h4 h5 h6 _ _ prec p q).trans (Finset.sum_congr rfl fun k _ => ?_)
  rw [truncf_apply, truncf_apply, mulf_apply, act_tile_apply x0 x1 x2 c0 c1 c2 hb1 hb2 p k, shapeCast_self,
    Gcn.Lib.broadcastTo_a1_ab_apply _ hb1 p k]

/-- A tile body's class stage — the activation narrowed against the narrowed class weights into a zero accumulator, plus the
    class bias row repeated down the tile — read at `(p, q)`. -/
theorem head_tile_apply {ψ : FTy} (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (x0 : FVec Ideal ⟨2, ![a, f]⟩ .f32) (x1 : FVec Ideal ⟨2, ![a, 1]⟩ .f32) (x2 : FVec Ideal ⟨2, ![1, f]⟩ .f32)
    (x3 : FVec Ideal ⟨2, ![f, n]⟩ .f32) (x4 : FVec Ideal ⟨2, ![1, n]⟩ .f32)
    (c0 : (⟨2, ![a, f]⟩ : Shape).ShapeCasts ⟨2, ![a, f]⟩) (c1 : (⟨2, ![a, 1]⟩ : Shape).ShapeCasts ⟨2, ![a, 1]⟩)
    (c2 : (⟨2, ![1, f]⟩ : Shape).ShapeCasts ⟨2, ![1, f]⟩) (c4 : (⟨2, ![1, n]⟩ : Shape).ShapeCasts ⟨2, ![1, n]⟩)
    (hb1 : (⟨2, ![a, 1]⟩ : Shape).Broadcasts ⟨2, ![a, f]⟩) (hb2 : (⟨2, ![1, f]⟩ : Shape).Broadcasts ⟨2, ![a, f]⟩)
    (hb4 : (⟨2, ![1, n]⟩ : Shape).Broadcasts ⟨2, ![a, n]⟩) (p : Fin a) (q : Fin n) :
    addf (matmul dd prec
        (truncf ψ
          (maximumf (addf (mulf (shapeCast ⟨2, ![a, f]⟩ x0 c0) (broadcastTo ⟨2, ![a, f]⟩ (shapeCast ⟨2, ![a, 1]⟩ x1 c1) hb1))
              (broadcastTo ⟨2, ![a, f]⟩ (shapeCast ⟨2, ![1, f]⟩ x2 c2) hb2))
            (broadcast ⟨2, ![a, f]⟩ (Scalar.ofBits (F := Ideal) .f32 0x00000000#32))) hψ)
        (truncf ψ x3 hψ) (constant ⟨2, ![a, n]⟩ .f32 0x00000000#32))
      (broadcastTo ⟨2, ![a, n]⟩ (shapeCast ⟨2, ![1, n]⟩ x4 c4) hb4) (ix2 p q)
      = headAt x0 x1 x2 x3 x4 p q := by
  rw [addf_apply]
  unfold headAt
  refine congrArg₂ (· + ·) ((DotRecord.matmul_zero_apply dd h1 h2 h3 h4 h5 h6 _ _ prec p q).trans
    (Finset.sum_congr rfl fun k _ => ?_)) ?_
  · rw [truncf_apply, truncf_apply, act_tile_apply x0 x1 x2 c0 c1 c2 hb1 hb2 p k]
  · rw [shapeCast_self, DotRecord.broadcastTo_1b_ab_apply _ hb4 p q]

/-! ## A host program's spellings, the scales and biases arriving as vectors -/

/-- The host's activation — the aggregate times the scale vector repeated across the columns, plus the bias vector repeated
    down the rows, the maximum with a scalar zero repeated everywhere — read at `(p, k)`: the scale and the bias as the
    column and the row they are recast to. -/
theorem act_host_apply (agg : FVec Ideal ⟨2, ![a, f]⟩ .f32) (s : FVec Ideal ⟨1, ![a]⟩ .f32) (b : FVec Ideal ⟨1, ![f]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (hr1 : (⟨1, ![f]⟩ : Shape).BroadcastsInDim ⟨2, ![1, f]⟩ (![1] : Fin 1 → Fin 2))
    (hr2 : (⟨2, ![1, f]⟩ : Shape).BroadcastsInDim ⟨2, ![a, f]⟩ (![0, 1] : Fin 2 → Fin 2))
    (hz : (⟨0, ![]⟩ : Shape).BroadcastsInDim ⟨2, ![a, f]⟩ ![])
    (cs : (⟨1, ![a]⟩ : Shape).ShapeCasts ⟨2, ![a, 1]⟩) (cb : (⟨1, ![f]⟩ : Shape).ShapeCasts ⟨2, ![1, f]⟩)
    (p : Fin a) (k : Fin f) :
    maximumf (addf (mulf agg (broadcastInDim ⟨2, ![a, f]⟩ ![0, 1] hs2 (broadcastInDim ⟨2, ![a, 1]⟩ ![0] hs1 s)))
          (broadcastInDim ⟨2, ![a, f]⟩ ![0, 1] hr2 (broadcastInDim ⟨2, ![1, f]⟩ ![1] hr1 b)))
        (broadcastInDim ⟨2, ![a, f]⟩ ![] hz (constant (F := Ideal) ⟨0, ![]⟩ .f32 0x00000000#32)) (ix2 p k)
      = actAt agg (shapeCast ⟨2, ![a, 1]⟩ s cs) (shapeCast ⟨2, ![1, f]⟩ b cb) p k := by
  unfold actAt
  rw [maximumf_apply, addf_apply, mulf_apply, Hmu.Lib.bcastRows_apply s hs1 hs2 p k, Hmu.Lib.bcastCols_apply b hr1 hr2 p k,
    Hmu.Lib.bcast_const_apply _ hz (ix2 p k), Gcn.Lib.shapeCast_a_a1_apply s cs p 0, shapeCast_a_1a_apply b cb 0 k]

/-- The host's projection of scaled features as a whole array. -/
theorem proj_host_eq (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (x : FVec Ideal ⟨2, ![a, f]⟩ .f32) (s : FVec Ideal ⟨1, ![a]⟩ .f32) (w : FVec Ideal ⟨2, ![f, n]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (cs : (⟨1, ![a]⟩ : Shape).ShapeCasts ⟨2, ![a, 1]⟩) :
    Host.dotGeneral dd prec (mulf x (broadcastInDim ⟨2, ![a, f]⟩ ![0, 1] hs2 (broadcastInDim ⟨2, ![a, 1]⟩ ![0] hs1 s))) w
      = proj x (shapeCast ⟨2, ![a, 1]⟩ s cs) w := by
  funext i
  obtain ⟨p, q, rfl⟩ : ∃ (p : Fin a) (q : Fin n), i = ix2 p q := ⟨i 0, i 1, eq_ix2 i⟩
  show _ = projAt x (shapeCast ⟨2, ![a, 1]⟩ s cs) w p q
  unfold projAt
  refine (Bilinear.Host.dot_apply dd h1 h2 h3 h4 h5 h6 _ _ prec p q).trans (Finset.sum_congr rfl fun k _ => ?_)
  rw [mulf_apply, Hmu.Lib.bcastRows_apply s hs1 hs2 p k, Gcn.Lib.shapeCast_a_a1_apply s cs p 0]

/-- The host's middle stage as a whole array. -/
theorem mid_host_eq (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (agg : FVec Ideal ⟨2, ![a, f]⟩ .f32) (sIn : FVec Ideal ⟨1, ![a]⟩ .f32) (b : FVec Ideal ⟨1, ![f]⟩ .f32)
    (sOut : FVec Ideal ⟨1, ![a]⟩ .f32) (w : FVec Ideal ⟨2, ![f, n]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (hr1 : (⟨1, ![f]⟩ : Shape).BroadcastsInDim ⟨2, ![1, f]⟩ (![1] : Fin 1 → Fin 2))
    (hr2 : (⟨2, ![1, f]⟩ : Shape).BroadcastsInDim ⟨2, ![a, f]⟩ (![0, 1] : Fin 2 → Fin 2))
    (hz : (⟨0, ![]⟩ : Shape).BroadcastsInDim ⟨2, ![a, f]⟩ ![])
    (cs : (⟨1, ![a]⟩ : Shape).ShapeCasts ⟨2, ![a, 1]⟩) (cb : (⟨1, ![f]⟩ : Shape).ShapeCasts ⟨2, ![1, f]⟩) :
    Host.dotGeneral dd prec
        (mulf
          (maximumf (addf (mulf agg (broadcastInDim ⟨2, ![a, f]⟩ ![0, 1] hs2 (broadcastInDim ⟨2, ![a, 1]⟩ ![0] hs1 sIn)))
              (broadcastInDim ⟨2, ![a, f]⟩ ![0, 1] hr2 (broadcastInDim ⟨2, ![1, f]⟩ ![1] hr1 b)))
            (broadcastInDim ⟨2, ![a, f]⟩ ![] hz (constant (F := Ideal) ⟨0, ![]⟩ .f32 0x00000000#32)))
          (broadcastInDim ⟨2, ![a, f]⟩ ![0, 1] hs2 (broadcastInDim ⟨2, ![a, 1]⟩ ![0] hs1 sOut))) w
      = mid agg (shapeCast ⟨2, ![a, 1]⟩ sIn cs) (shapeCast ⟨2, ![1, f]⟩ b cb) (shapeCast ⟨2, ![a, 1]⟩ sOut cs) w := by
  funext i
  obtain ⟨p, q, rfl⟩ : ∃ (p : Fin a) (q : Fin n), i = ix2 p q := ⟨i 0, i 1, eq_ix2 i⟩
  show _ = midAt agg (shapeCast ⟨2, ![a, 1]⟩ sIn cs) (shapeCast ⟨2, ![1, f]⟩ b cb) (shapeCast ⟨2, ![a, 1]⟩ sOut cs) w p q
  unfold midAt
  refine (Bilinear.Host.dot_apply dd h1 h2 h3 h4 h5 h6 _ _ prec p q).trans (Finset.sum_congr rfl fun k _ => ?_)
  rw [mulf_apply, act_host_apply agg sIn b hs1 hs2 hr1 hr2 hz cs cb p k, Hmu.Lib.bcastRows_apply sOut hs1 hs2 p k,
    Gcn.Lib.shapeCast_a_a1_apply sOut cs p 0]

/-- The host's class stage as a whole array. -/
theorem head_host_eq (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (agg : FVec Ideal ⟨2, ![a, f]⟩ .f32) (sIn : FVec Ideal ⟨1, ![a]⟩ .f32) (b : FVec Ideal ⟨1, ![f]⟩ .f32)
    (wc : FVec Ideal ⟨2, ![f, n]⟩ .f32) (bc : FVec Ideal ⟨1, ![n]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (hr1 : (⟨1, ![f]⟩ : Shape).BroadcastsInDim ⟨2, ![1, f]⟩ (![1] : Fin 1 → Fin 2))
    (hr2 : (⟨2, ![1, f]⟩ : Shape).BroadcastsInDim ⟨2, ![a, f]⟩ (![0, 1] : Fin 2 → Fin 2))
    (hz : (⟨0, ![]⟩ : Shape).BroadcastsInDim ⟨2, ![a, f]⟩ ![])
    (hc1 : (⟨1, ![n]⟩ : Shape).BroadcastsInDim ⟨2, ![1, n]⟩ (![1] : Fin 1 → Fin 2))
    (hc2 : (⟨2, ![1, n]⟩ : Shape).BroadcastsInDim ⟨2, ![a, n]⟩ (![0, 1] : Fin 2 → Fin 2))
    (cs : (⟨1, ![a]⟩ : Shape).ShapeCasts ⟨2, ![a, 1]⟩) (cb : (⟨1, ![f]⟩ : Shape).ShapeCasts ⟨2, ![1, f]⟩)
    (cc : (⟨1, ![n]⟩ : Shape).ShapeCasts ⟨2, ![1, n]⟩) :
    addf (Host.dotGeneral dd prec
        (maximumf (addf (mulf agg (broadcastInDim ⟨2, ![a, f]⟩ ![0, 1] hs2 (broadcastInDim ⟨2, ![a, 1]⟩ ![0] hs1 sIn)))
            (broadcastInDim ⟨2, ![a, f]⟩ ![0, 1] hr2 (broadcastInDim ⟨2, ![1, f]⟩ ![1] hr1 b)))
          (broadcastInDim ⟨2, ![a, f]⟩ ![] hz (constant (F := Ideal) ⟨0, ![]⟩ .f32 0x00000000#32))) wc)
      (broadcastInDim ⟨2, ![a, n]⟩ ![0, 1] hc2 (broadcastInDim ⟨2, ![1, n]⟩ ![1] hc1 bc))
      = head agg (shapeCast ⟨2, ![a, 1]⟩ sIn cs) (shapeCast ⟨2, ![1, f]⟩ b cb) wc (shapeCast ⟨2, ![1, n]⟩ bc cc) := by
  funext i
  obtain ⟨p, q, rfl⟩ : ∃ (p : Fin a) (q : Fin n), i = ix2 p q := ⟨i 0, i 1, eq_ix2 i⟩
  rw [addf_apply, head_apply]
  unfold headAt
  refine congrArg₂ (· + ·) ((Bilinear.Host.dot_apply dd h1 h2 h3 h4 h5 h6 _ _ prec p q).trans
    (Finset.sum_congr rfl fun k _ => ?_)) ?_
  · rw [act_host_apply agg sIn b hs1 hs2 hr1 hr2 hz cs cb p k]
  · rw [Hmu.Lib.bcastCols_apply bc hc1 hc2 p q, shapeCast_a_1a_apply bc cc 0 q]

end SymNorm

end
-- ==== Proof.Region0.lean ====
/-
  The first tiled region as a function of whole arrays.

  The region walks the 100000 node rows in 25 tiles of 4000 rows. On each tile it scales every feature row by the row's
  out-degree scale and projects it on the first layer's weights. Here: what the tile body stores, entry by entry; that the
  tile written at grid point t is rows 4000 t … 4000 t + 3999 of one array-wide function of the features, the scale column
  and the weights; that the 25 tiles cover every row; hence the array the region leaves is that function.
-/
import proofs.«135894_j56942676410567_2_alg».proof.Proof.KernelIdealFrameP
import proofs.«135894_j56942676410567_2_alg».proof.Proof.LibSymNorm
import Idealize.ShloMosaic.Lib.Pipeline.Value
import Idealize.ShloMosaic.Lib.ValueIdx

noncomputable section

namespace Cert.KernelIdeal.RegionValue

open Idealize.ShloMosaic Idealize.ShloMosaic.ValueIdx Cert.KernelIdeal Cert.KernelIdeal.Gen Cert.KernelIdeal.GenP
open Idealize.ShloMosaic.TcCoe
open Idealize.ShloMosaic.Pipeline (Dat)

variable (V : (c : Dev nD) → (b : Ref sig .tc) → Buf (Elt Ideal) ((c : Thread nD τ).loc b))

/-- The offsets of a store or load that starts at the buffer's first entry. -/
theorem zero_offsets : (![0, 0] : Fin 2 → Nat) = fun _ => 0 := funext fun a => by fin_cases a <;> rfl

/-! ## Region 0: the projection of the scaled features

The body multiplies each feature row of its tile by the row's scale and projects it on the weights. A tile is 4000
consecutive rows, so tile `t` holds rows `4000 t … 4000 t + 3999` of the result, and row `p` of the tile depends on
row `4000 t + p` of the features, on the same row of the scale column and on the whole weight matrix. -/

/-- What the body stores, read at row `p` and column `q` of the tile. -/
theorem proj_payload_apply (x0 : Vec Ideal S4000x128 .f32) (x1 : Vec Ideal S4000x1 .f32) (x2 : Vec Ideal S128x128 .f32)
    (p : Fin 4000) (q : Fin 128) : k0_pay1 x0 x1 x2 (ix2 p q) = SymNorm.projAt x0 x1 x2 p q := by
  unfold k0_pay1
  exact SymNorm.proj_tile_apply dot_S4000x128_S128x128_S4000x128_1_0_0_1_n_n rfl rfl rfl rfl rfl rfl none bitsLt_bf16_f32
    x0 x1 x2 shapeCasts_S4000x1_S4000x1 broadcasts_S4000x1_S4000x128 p q

/-- An entry of the projection only reads row `p` of the features, the scale of row `p` and column `q` of the weights: if a
    tile's row `p` is row `r` of the arrays and the tile's weights are the array's, the tile's entry is the arrays' entry. -/
theorem projAt_of_rows (A0 : S100000x128.Idx → EReal) (A1 : S100000x1.Idx → EReal) (A2 : S128x128.Idx → EReal)
    (x0 : Vec Ideal S4000x128 .f32) (x1 : Vec Ideal S4000x1 .f32) (x2 : Vec Ideal S128x128 .f32)
    (p : Fin 4000) (r : Fin 100000) (q : Fin 128)
    (h0 : ∀ k : Fin 128, x0 (ix2 p k) = A0 (ix2 r k)) (h1 : x1 (ix2 p (0 : Fin 1)) = A1 (ix2 r (0 : Fin 1)))
    (h2 : ∀ k : Fin 128, x2 (ix2 k q) = A2 (ix2 k q)) :
    SymNorm.projAt x0 x1 x2 p q = SymNorm.projAt A0 A1 A2 r q := by
  unfold SymNorm.projAt
  exact Finset.sum_congr rfl fun k _ => by rw [h0 k, h1, h2 k]

/-- The block indices of region 0's four windows at grid point `t`: the row windows (features, scale column, result) sit at
    block row `t`, the weights at block (0, 0). Decided over the 25 points. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the projection of the arrays the region finds. -/
theorem flushed_proj (c : Dev nD) (t : Fin cfg0.N) :
    (dat0 (F := Ideal) V c).flushed 3 t = ((cfg0.win 3).blk t).view.read (Elt Ideal)
      (SymNorm.proj (V c main_arg0) (V c main_call0_v11) (V c main_arg3)) := by
  show (cfg0.win 3).cut (grid0.coords t) ((dat0 V c).after 3 t) = _
  rw [after0_3]
  unfold out0_3
  rw [View.canon_unit_zero zero_offsets]
  simp only [View.ld_unit_zero (S := S4000x128) zero_offsets, View.ld_unit_zero (S := S4000x1) zero_offsets,
    View.ld_unit_zero (S := S128x128) zero_offsets]
  obtain ⟨e00, e01, e10, e11, e20, e21, e30, e31⟩ := block_indices0 t
  have ht : t.val < 25 := t.isLt
  funext j
  obtain ⟨p, q, rfl⟩ : ∃ (p : Fin 4000) (q : Fin 128), j = ix2 p q := ⟨j 0, j 1, eq_ix2 j⟩
  -- row `p` of block `t` is row `4000 t + p` of the array
  have hrow : ((cfg0.win 3).blk t).view.emb (ix2 p q) = ix2 (⟨t.val * 4000 + p.val, by omega⟩ : Fin 100000) q := by
    funext a; apply Fin.ext
    match a with
    | ⟨0, _⟩ => show win0_3.index t (0 : Fin 2) * 4000 + 1 * p.val = t.val * 4000 + p.val; rw [e30]; omega
    | ⟨1, _⟩ => show win0_3.index t (1 : Fin 2) * 128 + 1 * q.val = q.val; rw [e31]; omega
  show k0_pay1 (iblk0 V c 0 t) (iblk0 V c 1 t) (iblk0 V c 2 t) (ix2 p q)
    = SymNorm.proj (V c main_arg0) (V c main_call0_v11) (V c main_arg3) (((cfg0.win 3).blk t).view.emb (ix2 p q))
  rw [hrow, SymNorm.proj_apply]
  refine (proj_payload_apply _ _ _ p q).trans ?_
  refine projAt_of_rows _ _ _ _ _ _ p _ q (fun k => ?_) ?_ (fun k => ?_)
  · show V c main_arg0 (((cfg0.win 0).blk t).view.emb (ix2 p k)) = _
    congr 1; funext a; apply Fin.ext
    match a with
    | ⟨0, _⟩ => show win0_0.index t (0 : Fin 2) * 4000 + 1 * p.val = t.val * 4000 + p.val; rw [e00]; omega
    | ⟨1, _⟩ => show win0_0.index t (1 : Fin 2) * 128 + 1 * k.val = k.val; rw [e01]; omega
  · show V c main_call0_v11 (((cfg0.win 1).blk t).view.emb (ix2 p (0 : Fin 1))) = _
    congr 1; funext a; apply Fin.ext
    match a with
    | ⟨0, _⟩ => show win0_1.index t (0 : Fin 2) * 4000 + 1 * p.val = t.val * 4000 + p.val; rw [e10]; omega
    | ⟨1, _⟩ => show win0_1.index t (1 : Fin 2) * 1 + 1 * (0 : Fin 1).val = (0 : Fin 1).val; rw [e11]; rfl
  · show V c main_arg3 (((cfg0.win 2).blk t).view.emb (ix2 k q)) = _
    congr 1; funext a; apply Fin.ext
    match a with
    | ⟨0, _⟩ => show win0_2.index t (0 : Fin 2) * 128 + 1 * k.val = k.val; rw [e20]; omega
    | ⟨1, _⟩ => show win0_2.index t (1 : Fin 2) * 128 + 1 * q.val = q.val; rw [e21]; omega

/-- An index of the result array is in point `t`'s block iff each coordinate is in the block's range on its axis. -/
theorem mem_block0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_call0_v18).slice (win0_3.rect t)).set ↔ _
  rw [View.set_slice_whole, Rect.mem_set_unit]
  exact Iff.rfl

/-- The 25 blocks of 4000 rows cover the 100000 rows: row `r` is in block `r / 4000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := rfl
  refine ⟨⟨(i 0).val / 4000, by rw [hN]; omega⟩, flush0_3 _, ?_⟩
  rw [mem_block0]
  obtain ⟨-, -, -, -, -, -, e30, e31⟩ := block_indices0 ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e31]; omega

/-- Region 0 leaves in its result array the projection of the arrays it finds. -/
theorem region0 (c : Dev nD) : (dat0 (F := Ideal) V c).arrAt 3 cfg0.N
    = SymNorm.proj (V c main_arg0) (V c main_call0_v11) (V c main_arg3) :=
  (dat0 (F := Ideal) V c).arrAt_eq_of_cover 3 _ (fun t _ => flushed_proj V c t) cover0

end Cert.KernelIdeal.RegionValue

end
-- ==== Proof.Region1.lean ====
/-
  The second tiled region as a function of whole arrays.

  The region walks the 100000 node rows in 25 tiles of 4000 rows. On each tile it rescales every aggregated row by the row's
  in-degree scale, adds the first layer's bias, rectifies, rescales by the row's out-degree scale and projects on the second
  layer's weights. Here: what the tile body stores, entry by entry; that the tile written at grid point t is rows
  4000 t … 4000 t + 3999 of one array-wide function of the aggregate, the two scale columns, the bias row and the weights;
  that the 25 tiles cover every row; hence the array the region leaves is that function.
-/
import proofs.«135894_j56942676410567_2_alg».proof.Proof.KernelIdealFrameP
import proofs.«135894_j56942676410567_2_alg».proof.Proof.LibSymNorm
import Idealize.ShloMosaic.Lib.Pipeline.Value
import Idealize.ShloMosaic.Lib.ValueIdx

noncomputable section

namespace Cert.KernelIdeal.RegionValue

open Idealize.ShloMosaic Idealize.ShloMosaic.ValueIdx Cert.KernelIdeal Cert.KernelIdeal.Gen Cert.KernelIdeal.GenP
open Idealize.ShloMosaic.TcCoe
open Idealize.ShloMosaic.Pipeline (Dat)

variable (V : (c : Dev nD) → (b : Ref sig .tc) → Buf (Elt Ideal) ((c : Thread nD τ).loc b))

/-- The offsets of a store or load that starts at the buffer's first entry. -/
private theorem zero_offsets : (![0, 0] : Fin 2 → Nat) = fun _ => 0 := funext fun a => by fin_cases a <;> rfl

/-! ## Region 1: the first layer's activation, rescaled and projected

The body rescales each aggregated row of its tile by the row's in-degree scale, adds the bias row, rectifies, rescales by the
row's out-degree scale and projects on the second layer's weights. A tile is 4000 consecutive rows, so tile `t` holds rows
`4000 t … 4000 t + 3999` of the result, and row `p` of the tile depends on row `4000 t + p` of the aggregate and of the two
scale columns, on the whole bias row and on the whole weight matrix. -/

/-- What the body stores, read at row `p` and column `q` of the tile. -/
theorem mid_payload_apply (x0 : Vec Ideal S4000x128 .f32) (x1 : Vec Ideal S4000x1 .f32) (x2 : Vec Ideal S1x128 .f32)
    (x3 : Vec Ideal S4000x1 .f32) (x4 : Vec Ideal S128x128 .f32) (p : Fin 4000) (q : Fin 128) :
    k1_pay1 x0 x1 x2 x3 x4 (ix2 p q) = SymNorm.midAt x0 x1 x2 x3 x4 p q := by
  unfold k1_pay1
  exact SymNorm.mid_tile_apply dot_S4000x128_S128x128_S4000x128_1_0_0_1_n_n rfl rfl rfl rfl rfl rfl none bitsLt_bf16_f32
    x0 x1 x2 x3 x4 shapeCasts_S4000x128_S4000x128 shapeCasts_S4000x1_S4000x1 shapeCasts_S1x128_S1x128
    broadcasts_S4000x1_S4000x128 broadcasts_S1x128_S4000x128 p q

/-- An entry of the middle stage only reads row `p` of the aggregate, the two scales of row `p`, the bias row and column `q`
    of the weights: if a tile's row `p` is row `r` of the arrays and the tile's bias row and weights are the arrays', the
    tile's entry is the arrays' entry. -/
theorem midAt_of_rows (A0 : S100000x128.Idx → EReal) (A1 : S100000x1.Idx → EReal) (A2 : S1x128.Idx → EReal)
    (A3 : S100000x1.Idx → EReal) (A4 : S128x128.Idx → EReal)
    (x0 : Vec Ideal S4000x128 .f32) (x1 : Vec Ideal S4000x1 .f32) (x2 : Vec Ideal S1x128 .f32)
    (x3 : Vec Ideal S4000x1 .f32) (x4 : Vec Ideal S128x128 .f32)
    (p : Fin 4000) (r : Fin 100000) (q : Fin 128)
    (h0 : ∀ k : Fin 128, x0 (ix2 p k) = A0 (ix2 r k)) (h1 : x1 (ix2 p (0 : Fin 1)) = A1 (ix2 r (0 : Fin 1)))
    (h2 : ∀ k : Fin 128, x2 (ix2 (0 : Fin 1) k) = A2 (ix2 (0 : Fin 1) k))
    (h3 : x3 (ix2 p (0 : Fin 1)) = A3 (ix2 r (0 : Fin 1)))
    (h4 : ∀ k : Fin 128, x4 (ix2 k q) = A4 (ix2 k q)) :
    SymNorm.midAt x0 x1 x2 x3 x4 p q = SymNorm.midAt A0 A1 A2 A3 A4 r q := by
  unfold SymNorm.midAt SymNorm.actAt
  exact Finset.sum_congr rfl fun k _ => by rw [h0 k, h1, h2 k, h3, h4 k]

/-- The block indices of region 1's six windows at grid point `t`: the row windows (aggregate, the two scale columns, result)
    sit at block row `t`, the bias row and the weights at block (0, 0). Decided over the 25 points. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of the middle stage of the arrays the region finds. -/
theorem flushed_mid (c : Dev nD) (t : Fin cfg1.N) :
    (dat1 (F := Ideal) V c).flushed 5 t = ((cfg1.win 5).blk t).view.read (Elt Ideal)
      (SymNorm.mid (V c main_call0_v29) (V c main_call0_v14) (V c main_call0_v15) (V c main_call0_v11) (V c main_arg5)) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S4000x1) zero_offsets,
    View.ld_unit_zero (S := S1x128) zero_offsets, View.ld_unit_zero (S := S128x128) zero_offsets]
  obtain ⟨e00, e01, e10, e11, e20, e21, e30, e31, e40, e41, e50, e51⟩ := block_indices1 t
  have ht : t.val < 25 := t.isLt
  funext j
  obtain ⟨p, q, rfl⟩ : ∃ (p : Fin 4000) (q : Fin 128), j = ix2 p q := ⟨j 0, j 1, eq_ix2 j⟩
  -- row `p` of block `t` is row `4000 t + p` of the array
  have hrow : ((cfg1.win 5).blk t).view.emb (ix2 p q) = ix2 (⟨t.val * 4000 + p.val, by omega⟩ : Fin 100000) q := by
    funext a; apply Fin.ext
    match a with
    | ⟨0, _⟩ => show win1_5.index t (0 : Fin 2) * 4000 + 1 * p.val = t.val * 4000 + p.val; rw [e50]; omega
    | ⟨1, _⟩ => show win1_5.index t (1 : Fin 2) * 128 + 1 * q.val = q.val; rw [e51]; omega
  show k1_pay1 (iblk1 V c 0 t) (iblk1 V c 1 t) (iblk1 V c 2 t) (iblk1 V c 3 t) (iblk1 V c 4 t) (ix2 p q)
    = SymNorm.mid (V c main_call0_v29) (V c main_call0_v14) (V c main_call0_v15) (V c main_call0_v11) (V c main_arg5)
        (((cfg1.win 5).blk t).view.emb (ix2 p q))
  rw [hrow, SymNorm.mid_apply]
  refine (mid_payload_apply _ _ _ _ _ p q).trans ?_
  refine midAt_of_rows _ _ _ _ _ _ _ _ _ _ p _ q (fun k => ?_) ?_ (fun k => ?_) ?_ (fun k => ?_)
  · show V c main_call0_v29 (((cfg1.win 0).blk t).view.emb (ix2 p k)) = _
    congr 1; funext a; apply Fin.ext
    match a with
    | ⟨0, _⟩ => show win1_0.index t (0 : Fin 2) * 4000 + 1 * p.val = t.val * 4000 + p.val; rw [e00]; omega
    | ⟨1, _⟩ => show win1_0.index t (1 : Fin 2) * 128 + 1 * k.val = k.val; rw [e01]; omega
  · show V c main_call0_v14 (((cfg1.win 1).blk t).view.emb (ix2 p (0 : Fin 1))) = _
    congr 1; funext a; apply Fin.ext
    match a with
    | ⟨0, _⟩ => show win1_1.index t (0 : Fin 2) * 4000 + 1 * p.val = t.val * 4000 + p.val; rw [e10]; omega
    | ⟨1, _⟩ => show win1_1.index t (1 : Fin 2) * 1 + 1 * (0 : Fin 1).val = (0 : Fin 1).val; rw [e11]; rfl
  · show V c main_call0_v15 (((cfg1.win 2).blk t).view.emb (ix2 (0 : Fin 1) k)) = _
    congr 1; funext a; apply Fin.ext
    match a with
    | ⟨0, _⟩ => show win1_2.index t (0 : Fin 2) * 1 + 1 * (0 : Fin 1).val = (0 : Fin 1).val; rw [e20]; rfl
    | ⟨1, _⟩ => show win1_2.index t (1 : Fin 2) * 128 + 1 * k.val = k.val; rw [e21]; omega
  · show V c main_call0_v11 (((cfg1.win 3).blk t).view.emb (ix2 p (0 : Fin 1))) = _
    congr 1; funext a; apply Fin.ext
    match a with
    | ⟨0, _⟩ => show win1_3.index t (0 : Fin 2) * 4000 + 1 * p.val = t.val * 4000 + p.val; rw [e30]; omega
    | ⟨1, _⟩ => show win1_3.index t (1 : Fin 2) * 1 + 1 * (0 : Fin 1).val = (0 : Fin 1).val; rw [e31]; rfl
  · show V c main_arg5 (((cfg1.win 4).blk t).view.emb (ix2 k q)) = _
    congr 1; funext a; apply Fin.ext
    match a with
    | ⟨0, _⟩ => show win1_4.index t (0 : Fin 2) * 128 + 1 * k.val = k.val; rw [e40]; omega
    | ⟨1, _⟩ => show win1_4.index t (1 : Fin 2) * 128 + 1 * q.val = q.val; rw [e41]; omega

/-- An index of the result array is in point `t`'s block iff each coordinate is in the block's range on its axis. -/
theorem mem_block1 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_call0_v30).slice (win1_5.rect t)).set ↔ _
  rw [View.set_slice_whole, Rect.mem_set_unit]
  exact Iff.rfl

/-- The 25 blocks of 4000 rows cover the 100000 rows: row `r` is in block `r / 4000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := rfl
  refine ⟨⟨(i 0).val / 4000, by rw [hN]; omega⟩, flush1_5 _, ?_⟩
  rw [mem_block1]
  obtain ⟨-, -, -, -, -, -, -, -, -, -, e50, e51⟩ := block_indices1 ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e50]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e51]; omega

/-- Region 1 leaves in its result array the middle stage of the arrays it finds. -/
theorem region1 (c : Dev nD) : (dat1 (F := Ideal) V c).arrAt 5 cfg1.N
    = SymNorm.mid (V c main_call0_v29) (V c main_call0_v14) (V c main_call0_v15) (V c main_call0_v11) (V c main_arg5) :=
  (dat1 (F := Ideal) V c).arrAt_eq_of_cover 5 _ (fun t _ => flushed_mid V c t) cover1

end Cert.KernelIdeal.RegionValue

end
-- ==== Proof.Region2.lean ====
/-
  The third tiled region as a function of whole arrays.

  The region walks the 100000 node rows in 25 tiles of 4000 rows. On each tile it rescales every aggregated row by the row's
  in-degree scale, adds the second layer's bias, rectifies, projects on the class weights and adds the class bias. Here: what
  the tile body stores, entry by entry; that the tile written at grid point t is rows 4000 t … 4000 t + 3999 of one array-wide
  function of the aggregate, the scale column, the bias row, the class weights and the class bias; that the 25 tiles cover
  every row; hence the array the region leaves — the program's result — is that function.
-/
import proofs.«135894_j56942676410567_2_alg».proof.Proof.KernelIdealFrameP
import proofs.«135894_j56942676410567_2_alg».proof.Proof.LibSymNorm
import Idealize.ShloMosaic.Lib.Pipeline.Value
import Idealize.ShloMosaic.Lib.ValueIdx

noncomputable section

namespace Cert.KernelIdeal.RegionValue

open Idealize.ShloMosaic Idealize.ShloMosaic.ValueIdx Cert.KernelIdeal Cert.KernelIdeal.Gen Cert.KernelIdeal.GenP
open Idealize.ShloMosaic.TcCoe
open Idealize.ShloMosaic.Pipeline (Dat)

variable (V : (c : Dev nD) → (b : Ref sig .tc) → Buf (Elt Ideal) ((c : Thread nD τ).loc b))

/-- The offsets of a store or load that starts at the buffer's first entry. -/
private theorem zero_offsets : (![0, 0] : Fin 2 → Nat) = fun _ => 0 := funext fun a => by fin_cases a <;> rfl

/-! ## Region 2: the second layer's activation projected on the classes

The body rescales each aggregated row of its tile by the row's in-degree scale, adds the bias row, rectifies, projects on the
class weights and adds the class bias. A tile is 4000 consecutive rows, so tile `t` holds rows `4000 t … 4000 t + 3999` of
the result, and row `p` of the tile depends on row `4000 t + p` of the aggregate and of the scale column, on the whole bias
row, on the whole class weight matrix and on the whole class bias row. -/

/-- What the body stores, read at row `p` and class `q` of the tile. -/
theorem head_payload_apply (x0 : Vec Ideal S4000x128 .f32) (x1 : Vec Ideal S4000x1 .f32) (x2 : Vec Ideal S1x128 .f32)
    (x3 : Vec Ideal S128x4 .f32) (x4 : Vec Ideal S1x4 .f32) (p : Fin 4000) (q : Fin 4) :
    k2_pay1 x0 x1 x2 x3 x4 (ix2 p q) = SymNorm.headAt x0 x1 x2 x3 x4 p q := by
  unfold k2_pay1
  exact SymNorm.head_tile_apply dot_S4000x128_S128x4_S4000x4_1_0_0_1_n_n rfl rfl rfl rfl rfl rfl none bitsLt_bf16_f32
    x0 x1 x2 x3 x4 shapeCasts_S4000x128_S4000x128 shapeCasts_S4000x1_S4000x1 shapeCasts_S1x128_S1x128 shapeCasts_S1x4_S1x4
    broadcasts_S4000x1_S4000x128 broadcasts_S1x128_S4000x128 broadcasts_S1x4_S4000x4 p q

/-- An entry of the class stage only reads row `p` of the aggregate, the scale of row `p`, the bias row, column `q` of the
    class weights and entry `q` of the class bias: if a tile's row `p` is row `r` of the arrays and the tile's bias rows and
    weights are the arrays', the tile's entry is the arrays' entry. -/
theorem headAt_of_rows (A0 : S100000x128.Idx → EReal) (A1 : S100000x1.Idx → EReal) (A2 : S1x128.Idx → EReal)
    (A3 : S128x4.Idx → EReal) (A4 : S1x4.Idx → EReal)
    (x0 : Vec Ideal S4000x128 .f32) (x1 : Vec Ideal S4000x1 .f32) (x2 : Vec Ideal S1x128 .f32)
    (x3 : Vec Ideal S128x4 .f32) (x4 : Vec Ideal S1x4 .f32)
    (p : Fin 4000) (r : Fin 100000) (q : Fin 4)
    (h0 : ∀ k : Fin 128, x0 (ix2 p k) = A0 (ix2 r k)) (h1 : x1 (ix2 p (0 : Fin 1)) = A1 (ix2 r (0 : Fin 1)))
    (h2 : ∀ k : Fin 128, x2 (ix2 (0 : Fin 1) k) = A2 (ix2 (0 : Fin 1) k))
    (h3 : ∀ k : Fin 128, x3 (ix2 k q) = A3 (ix2 k q))
    (h4 : x4 (ix2 (0 : Fin 1) q) = A4 (ix2 (0 : Fin 1) q)) :
    SymNorm.headAt x0 x1 x2 x3 x4 p q = SymNorm.headAt A0 A1 A2 A3 A4 r q := by
  unfold SymNorm.headAt SymNorm.actAt
  exact congrArg₂ (· + ·) (Finset.sum_congr rfl fun k _ => by rw [h0 k, h1, h2 k, h3 k]) h4

/-- The block indices of region 2's six windows at grid point `t`: the row windows (aggregate, scale column, result) sit at
    block row `t`, the bias row, the class weights and the class bias at block (0, 0). Decided over the 25 points. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point `t` writes back is block `t` of the class stage of the arrays the region finds. -/
theorem flushed_head (c : Dev nD) (t : Fin cfg2.N) :
    (dat2 (F := Ideal) V c).flushed 5 t = ((cfg2.win 5).blk t).view.read (Elt Ideal)
      (SymNorm.head (V c main_call0_v41) (V c main_call0_v14) (V c main_call0_v16) (V c main_arg7) (V c main_call0_v17)) := by
  show (cfg2.win 5).cut (grid2.coords t) ((dat2 V c).after 5 t) = _
  rw [after2_5]
  unfold out2_5
  rw [View.canon_unit_zero zero_offsets]
  simp only [View.ld_unit_zero (S := S4000x128) zero_offsets, View.ld_unit_zero (S := S4000x1) zero_offsets,
    View.ld_unit_zero (S := S1x128) zero_offsets, View.ld_unit_zero (S := S128x4) zero_offsets,
    View.ld_unit_zero (S := S1x4) zero_offsets]
  obtain ⟨e00, e01, e10, e11, e20, e21, e30, e31, e40, e41, e50, e51⟩ := block_indices2 t
  have ht : t.val < 25 := t.isLt
  funext j
  obtain ⟨p, q, rfl⟩ : ∃ (p : Fin 4000) (q : Fin 4), j = ix2 p q := ⟨j 0, j 1, eq_ix2 j⟩
  -- row `p` of block `t` is row `4000 t + p` of the array
  have hrow : ((cfg2.win 5).blk t).view.emb (ix2 p q) = ix2 (⟨t.val * 4000 + p.val, by omega⟩ : Fin 100000) q := by
    funext a; apply Fin.ext
    match a with
    | ⟨0, _⟩ => show win2_5.index t (0 : Fin 2) * 4000 + 1 * p.val = t.val * 4000 + p.val; rw [e50]; omega
    | ⟨1, _⟩ => show win2_5.index t (1 : Fin 2) * 4 + 1 * q.val = q.val; rw [e51]; omega
  show k2_pay1 (iblk2 V c 0 t) (iblk2 V c 1 t) (iblk2 V c 2 t) (iblk2 V c 3 t) (iblk2 V c 4 t) (ix2 p q)
    = SymNorm.head (V c main_call0_v41) (V c main_call0_v14) (V c main_call0_v16) (V c main_arg7) (V c main_call0_v17)
        (((cfg2.win 5).blk t).view.emb (ix2 p q))
  rw [hrow, SymNorm.head_apply]
  refine (head_payload_apply _ _ _ _ _ p q).trans ?_
  refine headAt_of_rows _ _ _ _ _ _ _ _ _ _ p _ q (fun k => ?_) ?_ (fun k => ?_) (fun k => ?_) ?_
  · show V c main_call0_v41 (((cfg2.win 0).blk t).view.emb (ix2 p k)) = _
    congr 1; funext a; apply Fin.ext
    match a with
    | ⟨0, _⟩ => show win2_0.index t (0 : Fin 2) * 4000 + 1 * p.val = t.val * 4000 + p.val; rw [e00]; omega
    | ⟨1, _⟩ => show win2_0.index t (1 : Fin 2) * 128 + 1 * k.val = k.val; rw [e01]; omega
  · show V c main_call0_v14 (((cfg2.win 1).blk t).view.emb (ix2 p (0 : Fin 1))) = _
    congr 1; funext a; apply Fin.ext
    match a with
    | ⟨0, _⟩ => show win2_1.index t (0 : Fin 2) * 4000 + 1 * p.val = t.val * 4000 + p.val; rw [e10]; omega
    | ⟨1, _⟩ => show win2_1.index t (1 : Fin 2) * 1 + 1 * (0 : Fin 1).val = (0 : Fin 1).val; rw [e11]; rfl
  · show V c main_call0_v16 (((cfg2.win 2).blk t).view.emb (ix2 (0 : Fin 1) k)) = _
    congr 1; funext a; apply Fin.ext
    match a with
    | ⟨0, _⟩ => show win2_2.index t (0 : Fin 2) * 1 + 1 * (0 : Fin 1).val = (0 : Fin 1).val; rw [e20]; rfl
    | ⟨1, _⟩ => show win2_2.index t (1 : Fin 2) * 128 + 1 * k.val = k.val; rw [e21]; omega
  · show V c main_arg7 (((cfg2.win 3).blk t).view.emb (ix2 k q)) = _
    congr 1; funext a; apply Fin.ext
    match a with
    | ⟨0, _⟩ => show win2_3.index t (0 : Fin 2) * 128 + 1 * k.val = k.val; rw [e30]; omega
    | ⟨1, _⟩ => show win2_3.index t (1 : Fin 2) * 4 + 1 * q.val = q.val; rw [e31]; omega
  · show V c main_call0_v17 (((cfg2.win 4).blk t).view.emb (ix2 (0 : Fin 1) q)) = _
    congr 1; funext a; apply Fin.ext
    match a with
    | ⟨0, _⟩ => show win2_4.index t (0 : Fin 2) * 1 + 1 * (0 : Fin 1).val = (0 : Fin 1).val; rw [e40]; rfl
    | ⟨1, _⟩ => show win2_4.index t (1 : Fin 2) * 4 + 1 * q.val = q.val; rw [e41]; omega

/-- An index of the result array is in point `t`'s block iff each coordinate is in the block's range on its axis. -/
theorem mem_block2 (t : Fin cfg2.N) (i : S100000x4.Idx) :
    i ∈ ((cfg2.win 5).blk t).view.set ↔ ∀ a : Fin 2, win2_5.index t a * S4000x4.size a ≤ (i a).val
      ∧ (i a).val < win2_5.index t a * S4000x4.size a + S4000x4.size a := by
  show i ∈ ((View.whole main_v0).slice (win2_5.rect t)).set ↔ _
  rw [View.set_slice_whole, Rect.mem_set_unit]
  exact Iff.rfl

/-- The 25 blocks of 4000 rows cover the 100000 rows: row `r` is in block `r / 4000`. -/
theorem cover2 (i : S100000x4.Idx) :
    ∃ t : Fin cfg2.N, (cfg2.win 5).flush t = true ∧ i ∈ ((cfg2.win 5).blk t).view.set := by
  have hi0 : (i 0).val < 100000 := (i 0).isLt
  have hi1 : (i 1).val < 4 := (i 1).isLt
  have hN : cfg2.N = 25 := rfl
  refine ⟨⟨(i 0).val / 4000, by rw [hN]; omega⟩, flush2_5 _, ?_⟩
  rw [mem_block2]
  obtain ⟨-, -, -, -, -, -, -, -, -, -, e50, e51⟩ := block_indices2 ⟨(i 0).val / 4000, by rw [hN]; omega⟩
  intro a
  match a with
  | ⟨0, _⟩ =>
    show win2_5.index _ (0 : Fin 2) * 4000 ≤ (i 0).val ∧ (i 0).val < win2_5.index _ (0 : Fin 2) * 4000 + 4000
    rw [e50]; show (i 0).val / 4000 * 4000 ≤ (i 0).val ∧ (i 0).val < (i 0).val / 4000 * 4000 + 4000; omega
  | ⟨1, _⟩ =>
    show win2_5.index _ (1 : Fin 2) * 4 ≤ (i 1).val ∧ (i 1).val < win2_5.index _ (1 : Fin 2) * 4 + 4
    rw [e51]; omega

/-- Region 2 leaves in its result array the class stage of the arrays it finds. -/
theorem region2 (c : Dev nD) : (dat2 (F := Ideal) V c).arrAt 5 cfg2.N
    = SymNorm.head (V c main_call0_v41) (V c main_call0_v14) (V c main_call0_v16) (V c main_arg7) (V c main_call0_v17) :=
  (dat2 (F := Ideal) V c).arrAt_eq_of_cover 5 _ (fun t _ => flushed_head V c t) cover2

end Cert.KernelIdeal.RegionValue

end
-- ==== Proof.KernelHostValue.lean ====
/-
  The host side of the kernel program, as named functions of the argument arrays on the extended reals.

  Around its three tiled stages the kernel program computes on the host: each node's out- and in-degree as a
  scatter-add of ones over the edge list, clipped below at one; the degree to the power -1/2, recast to a column; each
  bias recast to a row; and, between two stages, one message pass: the rows of a node table gathered at the edges'
  sources (a negative index wrapped by the node count first) and scatter-added at the edges' destinations into zeros.
  The program's result is the class stage of the second pass of the middle stage of the first pass of the projection.
-/
import proofs.«135894_j56942676410567_2_alg».proof.KernelIdeal
import proofs.«135894_j56942676410567_2_alg».proof.Proof.Gen.KernelIdeal
import proofs.«135894_j56942676410567_2_alg».proof.Proof.LibSymNorm

noncomputable section

namespace Cert.KernelIdeal.HostValue

open Idealize.ShloMosaic Cert.KernelIdeal Cert.KernelIdeal.Gen

/-- One per edge. -/
def ones : FVec Ideal S1600000 .f32 := broadcastInDim S1600000 ![] bcast_S_S1600000 (constant S_ .f32 0x3F800000#32)

/-- The number of edges listing each node in `idx`, as a float, clipped below at one. -/
def degree (idx : IVec S1600000 32) : FVec Ideal S100000 .f32 :=
  maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx) ones)

/-- The degree to the power -1/2. -/
def scale (idx : IVec S1600000 32) : FVec Ideal S100000 .f32 :=
  Host.powf (degree idx) (broadcastInDim S100000 ![] bcast_S_S100000 (constant S_ .f32 0xBF000000#32))

/-- That scale as a column. -/
def scaleCol (idx : IVec S1600000 32) : FVec Ideal S100000x1 .f32 :=
  shapeCast S100000x1 (scale idx) shapeCasts_S100000_S100000x1

/-- A negative index wrapped by the node count. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- One message pass: the table's rows gathered at the sources, summed at the destinations. -/
def aggregate (h : FVec Ideal S100000x128 .bf16) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (extf .f32 (Host.gather gather_S100000x128_S1600000x1_S1600000x128_1_0_n_n_0_1_1128 h
      (broadcastInDim S1600000x1 ![0] bcast_S1600000_S1600000x1_0 (wrapped src))) bitsLt_bf16_f32)

/-- The kernel program's result as one function of its nine arguments. -/
def result (x : FVec Ideal S100000x128 .f32) (src dst : IVec S1600000 32) (w1 : FVec Ideal S128x128 .f32) (b1 : FVec Ideal S128 .f32)
    (w2 : FVec Ideal S128x128 .f32) (b2 : FVec Ideal S128 .f32) (wc : FVec Ideal S128x4 .f32) (bc : FVec Ideal S4 .f32) :
    FVec Ideal S100000x4 .f32 :=
  SymNorm.head
    (aggregate
      (SymNorm.mid (aggregate (SymNorm.proj x (scaleCol src) w1) src dst) (scaleCol dst)
        (shapeCast S1x128 b1 shapeCasts_S128_S1x128) (scaleCol src) w2) src dst)
    (scaleCol dst) (shapeCast S1x128 b2 shapeCasts_S128_S1x128) wc (shapeCast S1x4 bc shapeCasts_S4_S1x4)

end Cert.KernelIdeal.HostValue

end
-- ==== Proof.KernelFold.lean ====
/-
  The kernel program's result as one function of its nine arguments, on the extended reals.

  The buffer contents at the six boundaries of the run are a fold from the launch memory: a stretch of host operations
  rewrites the buffers it writes and keeps the others, a tiled region rewrites its output array and keeps the others.
  Walking that fold back from the result buffer: the result is the class stage of what the third stretch leaves, which
  is one message pass over the middle stage's output, itself the middle stage of one message pass over the projection's
  output; the scale columns and the bias rows are written once, by the first stretch, and carried unchanged from then
  on; the arguments are never written. The three stages' values enter as hypotheses.
-/
import proofs.«135894_j56942676410567_2_alg».proof.Proof.KernelIdealFrameP
import proofs.«135894_j56942676410567_2_alg».proof.Proof.KernelHostValue
import proofs.«135894_j56942676410567_2_alg».proof.Proof.LibSymNorm
import Idealize.ShloMosaic.Lib.StableHlo.Run
import Idealize.ShloMosaic.Lib.Pipeline.FrameSuffix

set_option maxRecDepth 16384

noncomputable section

namespace Cert.KernelIdeal.RunValue

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## What a stretch of host operations keeps

Each operation writes one buffer; a buffer that is not among a stretch's written ones holds after the stretch what it
held before it. -/

/-- The buffers the first stretch writes, in the order of its operations. -/
abbrev written0 : List (Ref sig .tc) := [main_call0_cst, main_call0_v0, main_call0_cst_0, main_call0_v1, main_call0_v2, main_call0_v3, main_call0_cst_1, main_call0_call0_v0, main_call0_call0_v1, main_call0_v4, main_call0_cst_2, main_call0_v5, main_call0_v6, main_call0_v7, main_call0_cst_3, main_call0_call1_v0, main_call0_call1_v1, main_call0_v8, main_call0_cst_4, main_call0_v9, main_call0_v10, main_call0_v11, main_call0_cst_5, main_call0_v12, main_call0_v13, main_call0_v14, main_call0_v15, main_call0_v16, main_call0_v17]
/-- The buffers the second stretch writes. -/
abbrev written1 : List (Ref sig .tc) := [main_call0_c, main_call0_v19, main_call0_v20, main_call0_c_6, main_call0_v21, main_call0_v22, main_call0_v23, main_call0_v24, main_call0_v25, main_call0_v26, main_call0_cst_7, main_call0_v27, main_call0_v28, main_call0_v29]
/-- The buffers the third stretch writes. -/
abbrev written2 : List (Ref sig .tc) := [main_call0_c_8, main_call0_v31, main_call0_v32, main_call0_c_9, main_call0_v33, main_call0_v34, main_call0_v35, main_call0_v36, main_call0_v37, main_call0_v38, main_call0_cst_10, main_call0_v39, main_call0_v40, main_call0_v41]

theorem writes0 : (hostOps0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem writes1 : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem writes2 : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer the first stretch does not write holds its launch contents at the first region's entry. -/
theorem W1_keep (r : Ref sig .tc) (h : r ∉ written0) :
    W1 m ρ c (Proc.devRef .tc r) = m ((c : Thread nD τ).loc r) :=
  StableHlo.after_of_writes_sub hostOps0 _ writes0 h
/-- A buffer the second stretch does not write holds at the second region's entry what the first region left. -/
theorem W3_keep (r : Ref sig .tc) (h : r ∉ written1) :
    W3 m ρ c (Proc.devRef .tc r) = W2 m ρ c (Proc.devRef .tc r) :=
  StableHlo.after_of_writes_sub hostOps1 _ writes1 h
/-- A buffer the third stretch does not write holds at the third region's entry what the second region left. -/
theorem W5_keep (r : Ref sig .tc) (h : r ∉ written2) :
    W5 m ρ c (Proc.devRef .tc r) = W4 m ρ c (Proc.devRef .tc r) :=
  StableHlo.after_of_writes_sub hostOps2 _ writes2 h

/-! ## What a region keeps

A region rewrites the array of its output window only: at its exit the array of an input window holds what it held at
the region's entry (and so does every buffer that is no window's array: the fold's own lemma). -/

theorem W2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-! ## Reading a typed reference

A host operation is stated on typed references: it carries a buffer's contents to the value's type and back along the
proof that the two types agree, which is the identity. -/

/-- Contents carried to a reference's buffer and back are unchanged. -/
theorem ofBuf_toBuf {T : BufTy} (x : StableHlo.TRef sig T) (v : T.Contents (Elt Ideal)) :
    x.ofBuf (Val := Elt Ideal) (x.toBuf v) = v := by
  obtain ⟨r, h1, h2, h3⟩ := x
  subst h1
  rfl

/-! ## What the first stretch leaves: the two scale columns and the three bias rows

The out-degree scale column is computed from the edges' sources alone: the ones scattered at the sources into zeros,
clipped below at one, raised to the power -1/2, recast to a column. The in-degree one is the same function of the
edges' destinations. Each bias row is its argument vector recast. -/

theorem W1_v11 : (W1 m ρ c (Proc.devRef .tc main_call0_v11) : FVec Ideal S100000x1 .f32)
    = HostValue.scaleCol (m ((c : Thread nD τ).loc main_arg1)) := by
  show StableHlo.after hostOps0 (W0 m ρ c) (Proc.devRef .tc main_call0_v11) = _
  after_results
  repeat rw [ofBuf_toBuf]
  have e1 : ∀ v, (StableHlo.TRef.of main_call0_v10 : StableHlo.TRef sig ⟨S100000, .f32⟩).toBuf (Val := Elt Ideal) v = v := fun _ => rfl
  have e2 : ∀ v, (StableHlo.TRef.of main_arg1 : StableHlo.TRef sig ⟨S1600000, .i32⟩).ofBuf (Val := Elt Ideal) v = v := fun _ => rfl
  rw [e1, e2]
  unfold HostValue.scaleCol HostValue.scale HostValue.degree HostValue.ones
  rfl
theorem W1_v14 : (W1 m ρ c (Proc.devRef .tc main_call0_v14) : FVec Ideal S100000x1 .f32)
    = HostValue.scaleCol (m ((c : Thread nD τ).loc main_arg2)) := by
  show StableHlo.after hostOps0 (W0 m ρ c) (Proc.devRef .tc main_call0_v14) = _
  after_results
  repeat rw [ofBuf_toBuf]
  have e1 : ∀ v, (StableHlo.TRef.of main_call0_v13 : StableHlo.TRef sig ⟨S100000, .f32⟩).toBuf (Val := Elt Ideal) v = v := fun _ => rfl
  have e2 : ∀ v, (StableHlo.TRef.of main_arg2 : StableHlo.TRef sig ⟨S1600000, .i32⟩).ofBuf (Val := Elt Ideal) v = v := fun _ => rfl
  rw [e1, e2]
  unfold HostValue.scaleCol HostValue.scale HostValue.degree HostValue.ones
  rfl
theorem W1_v15 : (W1 m ρ c (Proc.devRef .tc main_call0_v15) : FVec Ideal S1x128 .f32)
    = shapeCast S1x128 (m ((c : Thread nD τ).loc main_arg4)) shapeCasts_S128_S1x128 := by
  show StableHlo.after hostOps0 (W0 m ρ c) (Proc.devRef .tc main_call0_v15) = _
  after_results
  rfl
theorem W1_v16 : (W1 m ρ c (Proc.devRef .tc main_call0_v16) : FVec Ideal S1x128 .f32)
    = shapeCast S1x128 (m ((c : Thread nD τ).loc main_arg6)) shapeCasts_S128_S1x128 := by
  show StableHlo.after hostOps0 (W0 m ρ c) (Proc.devRef .tc main_call0_v16) = _
  after_results
  rfl
theorem W1_v17 : (W1 m ρ c (Proc.devRef .tc main_call0_v17) : FVec Ideal S1x4 .f32)
    = shapeCast S1x4 (m ((c : Thread nD τ).loc main_arg8)) shapeCasts_S4_S1x4 := by
  show StableHlo.after hostOps0 (W0 m ρ c) (Proc.devRef .tc main_call0_v17) = _
  after_results
  rfl

/-! ## What the second and the third stretch leave: one message pass each

Each gathers the rows of the region's output table at the edges' sources (a negative source wrapped by the node count),
widens them, and scatter-adds them at the edges' destinations into zeros; the sources and destinations are read from
the argument buffers as the stretch finds them. -/

theorem W3_v29 : (W3 m ρ c (Proc.devRef .tc main_call0_v29) : FVec Ideal S100000x128 .f32)
    = HostValue.aggregate (W2 m ρ c (Proc.devRef .tc main_call0_v18)) (W2 m ρ c (Proc.devRef .tc main_arg1)) (W2 m ρ c (Proc.devRef .tc main_arg2)) := by
  show StableHlo.after hostOps1 (W2 m ρ c) (Proc.devRef .tc main_call0_v29) = _
  after_results
  repeat rw [ofBuf_toBuf]
  have e1 : ∀ v, (StableHlo.TRef.of main_call0_v29 : StableHlo.TRef sig ⟨S100000x128, .f32⟩).toBuf (Val := Elt Ideal) v = v := fun _ => rfl
  have e2 : ∀ v, (StableHlo.TRef.of main_call0_v18 : StableHlo.TRef sig ⟨S100000x128, .bf16⟩).ofBuf (Val := Elt Ideal) v = v := fun _ => rfl
  have e3 : ∀ v, (StableHlo.TRef.of main_arg1 : StableHlo.TRef sig ⟨S1600000, .i32⟩).ofBuf (Val := Elt Ideal) v = v := fun _ => rfl
  have e4 : ∀ v, (StableHlo.TRef.of main_arg2 : StableHlo.TRef sig ⟨S1600000, .i32⟩).ofBuf (Val := Elt Ideal) v = v := fun _ => rfl
  rw [e1, e2, e3, e4]
  unfold HostValue.aggregate HostValue.wrapped
  rfl
theorem W5_v41 : (W5 m ρ c (Proc.devRef .tc main_call0_v41) : FVec Ideal S100000x128 .f32)
    = HostValue.aggregate (W4 m ρ c (Proc.devRef .tc main_call0_v30)) (W4 m ρ c (Proc.devRef .tc main_arg1)) (W4 m ρ c (Proc.devRef .tc main_arg2)) := by
  show StableHlo.after hostOps2 (W4 m ρ c) (Proc.devRef .tc main_call0_v41) = _
  after_results
  repeat rw [ofBuf_toBuf]
  have e1 : ∀ v, (StableHlo.TRef.of main_call0_v41 : StableHlo.TRef sig ⟨S100000x128, .f32⟩).toBuf (Val := Elt Ideal) v = v := fun _ => rfl
  have e2 : ∀ v, (StableHlo.TRef.of main_call0_v30 : StableHlo.TRef sig ⟨S100000x128, .bf16⟩).ofBuf (Val := Elt Ideal) v = v := fun _ => rfl
  have e3 : ∀ v, (StableHlo.TRef.of main_arg1 : StableHlo.TRef sig ⟨S1600000, .i32⟩).ofBuf (Val := Elt Ideal) v = v := fun _ => rfl
  have e4 : ∀ v, (StableHlo.TRef.of main_arg2 : StableHlo.TRef sig ⟨S1600000, .i32⟩).ofBuf (Val := Elt Ideal) v = v := fun _ => rfl
  rw [e1, e2, e3, e4]
  unfold HostValue.aggregate HostValue.wrapped
  rfl

end Cert.KernelIdeal.RunValue

end
-- ==== Proof.KernelRun.lean ====
/-
  The kernel program's run, with its result named.

  The run of the kernel program is a chain of six segments: three stretches of host operations and three tiled
  regions. The contents of every unscoped buffer at the end of the chain are known as a fold from the launch memory;
  the final state is read against that fold at the result buffer as well as at the nine argument buffers. The result
  buffer then holds the last region's output array, and the arguments hold what they held at launch.

  On the extended reals that output array is then walked back through the fold to the launch memory: the result is the
  class stage of one message pass over the middle stage of one message pass over the projection of the features, the
  scale columns and bias rows being what the first stretch of host operations computes from the edge lists and the
  bias vectors. The three stages' values are hypotheses here.
-/
import proofs.«135894_j56942676410567_2_alg».proof.Proof.KernelIdealFrameP
import proofs.«135894_j56942676410567_2_alg».proof.Proof.KernelHostValue
import proofs.«135894_j56942676410567_2_alg».proof.Proof.LibSymNorm
import proofs.«135894_j56942676410567_2_alg».proof.Proof.KernelFold

set_option maxRecDepth 16384

noncomputable section

namespace Cert.KernelIdeal.RunValue

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- At the compiled mesh, from any memory with zero counters, every weakly fair execution of the kernel program on
    the TensorCores terminates, nothing faulting, and in every final state the result buffer holds the last boundary's
    contents there, and each argument buffer what it held at launch. -/
theorem run_out : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end AnyFloat

section Value

/-! # The result as one function of the nine arguments, on the extended reals

The buffer contents at the boundaries are walked back from the result buffer. The three stages' values enter as
hypotheses: each says that a region's output array is its stage of what the region finds in its input arrays. -/

variable (m : (ℓ : Loc nD τ sig) → Buf (Elt Ideal) ℓ) (ρ : Dev nD → PrngReg) (c : Dev nD)

/-! ## The edge lists at the later boundaries: never written, in no region's window -/

theorem W2_arg1 : W2 m ρ c (Proc.devRef .tc main_arg1) = m ((c : Thread nD τ).loc main_arg1) :=
  (W2_of_ne m ρ c main_arg1 (by decide)).trans (W1_keep m ρ c main_arg1 (by decide))
theorem W2_arg2 : W2 m ρ c (Proc.devRef .tc main_arg2) = m ((c : Thread nD τ).loc main_arg2) :=
  (W2_of_ne m ρ c main_arg2 (by decide)).trans (W1_keep m ρ c main_arg2 (by decide))
theorem W4_arg1 : W4 m ρ c (Proc.devRef .tc main_arg1) = m ((c : Thread nD τ).loc main_arg1) :=
  (W4_of_ne m ρ c main_arg1 (by decide)).trans ((W3_keep m ρ c main_arg1 (by decide)).trans (W2_arg1 m ρ c))
theorem W4_arg2 : W4 m ρ c (Proc.devRef .tc main_arg2) = m ((c : Thread nD τ).loc main_arg2) :=
  (W4_of_ne m ρ c main_arg2 (by decide)).trans ((W3_keep m ρ c main_arg2 (by decide)).trans (W2_arg2 m ρ c))

/-! ## What the second region finds beside its aggregate

The in-degree scale column and the first bias row are in none of the first region's windows; the out-degree scale
column is its second input window; the second weight matrix is an argument. The second stretch writes none of them. -/

theorem W3_v14 : (W3 m ρ c (Proc.devRef .tc main_call0_v14) : FVec Ideal S100000x1 .f32) = HostValue.scaleCol (m ((c : Thread nD τ).loc main_arg2)) :=
  (W3_keep m ρ c main_call0_v14 (by decide)).trans ((W2_of_ne m ρ c main_call0_v14 (by decide)).trans (W1_v14 m ρ c))
theorem W3_v15 : (W3 m ρ c (Proc.devRef .tc main_call0_v15) : FVec Ideal S1x128 .f32) = shapeCast S1x128 (m ((c : Thread nD τ).loc main_arg4)) shapeCasts_S128_S1x128 :=
  (W3_keep m ρ c main_call0_v15 (by decide)).trans ((W2_of_ne m ρ c main_call0_v15 (by decide)).trans (W1_v15 m ρ c))
theorem W3_v11 : (W3 m ρ c (Proc.devRef .tc main_call0_v11) : FVec Ideal S100000x1 .f32) = HostValue.scaleCol (m ((c : Thread nD τ).loc main_arg1)) :=
  (W3_keep m ρ c main_call0_v11 (by decide)).trans ((W2_in m ρ c 1 rfl).trans (W1_v11 m ρ c))
theorem W3_arg5 : W3 m ρ c (Proc.devRef .tc main_arg5) = m ((c : Thread nD τ).loc main_arg5) :=
  (W3_keep m ρ c main_arg5 (by decide)).trans ((W2_of_ne m ρ c main_arg5 (by decide)).trans (W1_keep m ρ c main_arg5 (by decide)))

/-! ## What the third region finds beside its aggregate

The in-degree scale column is the second region's second input window; the second bias row, the class weights and the
class bias row are in none of the earlier regions' windows. Neither later stretch writes any of them. -/

theorem W5_v14 : (W5 m ρ c (Proc.devRef .tc main_call0_v14) : FVec Ideal S100000x1 .f32) = HostValue.scaleCol (m ((c : Thread nD τ).loc main_arg2)) :=
  (W5_keep m ρ c main_call0_v14 (by decide)).trans ((W4_in m ρ c 1 rfl).trans (W3_v14 m ρ c))
theorem W5_v16 : (W5 m ρ c (Proc.devRef .tc main_call0_v16) : FVec Ideal S1x128 .f32) = shapeCast S1x128 (m ((c : Thread nD τ).loc main_arg6)) shapeCasts_S128_S1x128 :=
  (W5_keep m ρ c main_call0_v16 (by decide)).trans ((W4_of_ne m ρ c main_call0_v16 (by decide)).trans
    ((W3_keep m ρ c main_call0_v16 (by decide)).trans ((W2_of_ne m ρ c main_call0_v16 (by decide)).trans (W1_v16 m ρ c))))
theorem W5_arg7 : W5 m ρ c (Proc.devRef .tc main_arg7) = m ((c : Thread nD τ).loc main_arg7) :=
  (W5_keep m ρ c main_arg7 (by decide)).trans ((W4_of_ne m ρ c main_arg7 (by decide)).trans
    ((W3_keep m ρ c main_arg7 (by decide)).trans ((W2_of_ne m ρ c main_arg7 (by decide)).trans (W1_keep m ρ c main_arg7 (by decide)))))
theorem W5_v17 : (W5 m ρ c (Proc.devRef .tc main_call0_v17) : FVec Ideal S1x4 .f32) = shapeCast S1x4 (m ((c : Thread nD τ).loc main_arg8)) shapeCasts_S4_S1x4 :=
  (W5_keep m ρ c main_call0_v17 (by decide)).trans ((W4_of_ne m ρ c main_call0_v17 (by decide)).trans
    ((W3_keep m ρ c main_call0_v17 (by decide)).trans ((W2_of_ne m ρ c main_call0_v17 (by decide)).trans (W1_v17 m ρ c))))

/-! ## The stages in turn -/

/-- The first region's output table: the projection of the features scaled by the out-degree column. -/
theorem W2_v18
    (hr0 : ∀ (V : (c : Dev nD) → (b : Ref sig .tc) → Buf (Elt Ideal) ((c : Thread nD τ).loc b)) (c : Dev nD),
      (dat0 (F := Ideal) V c).arrAt 3 cfg0.N = SymNorm.proj (V c main_arg0) (V c main_call0_v11) (V c main_arg3)) :
    (W2 m ρ c (Proc.devRef .tc main_call0_v18) : FVec Ideal S100000x128 .bf16) = SymNorm.proj (m ((c : Thread nD τ).loc main_arg0)) (HostValue.scaleCol (m ((c : Thread nD τ).loc main_arg1))) (m ((c : Thread nD τ).loc main_arg3)) := by
  refine (W2_arr m ρ c 3).trans ((hr0 (V1 m ρ) c).trans ?_)
  rw [show V1 m ρ c main_arg0 = m ((c : Thread nD τ).loc main_arg0) from W1_keep m ρ c main_arg0 (by decide),
    show (V1 m ρ c main_call0_v11 : FVec Ideal S100000x1 .f32) = _ from W1_v11 m ρ c,
    show V1 m ρ c main_arg3 = m ((c : Thread nD τ).loc main_arg3) from W1_keep m ρ c main_arg3 (by decide)]

/-- The second region's aggregate: one message pass over the first region's table. -/
theorem W3_v29_val
    (hr0 : ∀ (V : (c : Dev nD) → (b : Ref sig .tc) → Buf (Elt Ideal) ((c : Thread nD τ).loc b)) (c : Dev nD),
      (dat0 (F := Ideal) V c).arrAt 3 cfg0.N = SymNorm.proj (V c main_arg0) (V c main_call0_v11) (V c main_arg3)) :
    (W3 m ρ c (Proc.devRef .tc main_call0_v29) : FVec Ideal S100000x128 .f32) = HostValue.aggregate (SymNorm.proj (m ((c : Thread nD τ).loc main_arg0)) (HostValue.scaleCol (m ((c : Thread nD τ).loc main_arg1))) (m ((c : Thread nD τ).loc main_arg3))) (m ((c : Thread nD τ).loc main_arg1)) (m ((c : Thread nD τ).loc main_arg2)) := by
  rw [W3_v29 m ρ c, W2_v18 m ρ c hr0, W2_arg1 m ρ c, W2_arg2 m ρ c]

/-- The second region's output table: the middle stage of that aggregate. -/
theorem W4_v30
    (hr0 : ∀ (V : (c : Dev nD) → (b : Ref sig .tc) → Buf (Elt Ideal) ((c : Thread nD τ).loc b)) (c : Dev nD),
      (dat0 (F := Ideal) V c).arrAt 3 cfg0.N = SymNorm.proj (V c main_arg0) (V c main_call0_v11) (V c main_arg3))
    (hr1 : ∀ (V : (c : Dev nD) → (b : Ref sig .tc) → Buf (Elt Ideal) ((c : Thread nD τ).loc b)) (c : Dev nD),
      (dat1 (F := Ideal) V c).arrAt 5 cfg1.N
        = SymNorm.mid (V c main_call0_v29) (V c main_call0_v14) (V c main_call0_v15) (V c main_call0_v11) (V c main_arg5)) :
    (W4 m ρ c (Proc.devRef .tc main_call0_v30) : FVec Ideal S100000x128 .bf16) = SymNorm.mid (HostValue.aggregate (SymNorm.proj (m ((c : Thread nD τ).loc main_arg0)) (HostValue.scaleCol (m ((c : Thread nD τ).loc main_arg1))) (m ((c : Thread nD τ).loc main_arg3))) (m ((c : Thread nD τ).loc main_arg1)) (m ((c : Thread nD τ).loc main_arg2))) (HostValue.scaleCol (m ((c : Thread nD τ).loc main_arg2))) (shapeCast S1x128 (m ((c : Thread nD τ).loc main_arg4)) shapeCasts_S128_S1x128) (HostValue.scaleCol (m ((c : Thread nD τ).loc main_arg1))) (m ((c : Thread nD τ).loc main_arg5)) := by
  refine (W4_arr m ρ c 5).trans ((hr1 (V3 m ρ) c).trans ?_)
  rw [show (V3 m ρ c main_call0_v29 : FVec Ideal S100000x128 .f32) = _ from W3_v29_val m ρ c hr0,
    show (V3 m ρ c main_call0_v14 : FVec Ideal S100000x1 .f32) = _ from W3_v14 m ρ c,
    show (V3 m ρ c main_call0_v15 : FVec Ideal S1x128 .f32) = _ from W3_v15 m ρ c,
    show (V3 m ρ c main_call0_v11 : FVec Ideal S100000x1 .f32) = _ from W3_v11 m ρ c,
    show V3 m ρ c main_arg5 = m ((c : Thread nD τ).loc main_arg5) from W3_arg5 m ρ c]

/-- The third region's aggregate: one message pass over the second region's table. -/
theorem W5_v41_val
    (hr0 : ∀ (V : (c : Dev nD) → (b : Ref sig .tc) → Buf (Elt Ideal) ((c : Thread nD τ).loc b)) (c : Dev nD),
      (dat0 (F := Ideal) V c).arrAt 3 cfg0.N = SymNorm.proj (V c main_arg0) (V c main_call0_v11) (V c main_arg3))
    (hr1 : ∀ (V : (c : Dev nD) → (b : Ref sig .tc) → Buf (Elt Ideal) ((c : Thread nD τ).loc b)) (c : Dev nD),
      (dat1 (F := Ideal) V c).arrAt 5 cfg1.N
        = SymNorm.mid (V c main_call0_v29) (V c main_call0_v14) (V c main_call0_v15) (V c main_call0_v11) (V c main_arg5)) :
    (W5 m ρ c (Proc.devRef .tc main_call0_v41) : FVec Ideal S100000x128 .f32) = HostValue.aggregate (SymNorm.mid (HostValue.aggregate (SymNorm.proj (m ((c : Thread nD τ).loc main_arg0)) (HostValue.scaleCol (m ((c : Thread nD τ).loc main_arg1))) (m ((c : Thread nD τ).loc main_arg3))) (m ((c : Thread nD τ).loc main_arg1)) (m ((c : Thread nD τ).loc main_arg2))) (HostValue.scaleCol (m ((c : Thread nD τ).loc main_arg2))) (shapeCast S1x128 (m ((c : Thread nD τ).loc main_arg4)) shapeCasts_S128_S1x128) (HostValue.scaleCol (m ((c : Thread nD τ).loc main_arg1))) (m ((c : Thread nD τ).loc main_arg5))) (m ((c : Thread nD τ).loc main_arg1)) (m ((c : Thread nD τ).loc main_arg2)) := by
  rw [W5_v41 m ρ c, W4_v30 m ρ c hr0 hr1, W4_arg1 m ρ c, W4_arg2 m ρ c]

/-- The result buffer at the end of the run holds the kernel program's result function of the nine arguments' launch
    contents: the class stage of the third region's aggregate. -/
theorem value
    (hr0 : ∀ (V : (c : Dev nD) → (b : Ref sig .tc) → Buf (Elt Ideal) ((c : Thread nD τ).loc b)) (c : Dev nD),
      (dat0 (F := Ideal) V c).arrAt 3 cfg0.N = SymNorm.proj (V c main_arg0) (V c main_call0_v11) (V c main_arg3))
    (hr1 : ∀ (V : (c : Dev nD) → (b : Ref sig .tc) → Buf (Elt Ideal) ((c : Thread nD τ).loc b)) (c : Dev nD),
      (dat1 (F := Ideal) V c).arrAt 5 cfg1.N
        = SymNorm.mid (V c main_call0_v29) (V c main_call0_v14) (V c main_call0_v15) (V c main_call0_v11) (V c main_arg5))
    (hr2 : ∀ (V : (c : Dev nD) → (b : Ref sig .tc) → Buf (Elt Ideal) ((c : Thread nD τ).loc b)) (c : Dev nD),
      (dat2 (F := Ideal) V c).arrAt 5 cfg2.N
        = SymNorm.head (V c main_call0_v41) (V c main_call0_v14) (V c main_call0_v16) (V c main_arg7) (V c main_call0_v17)) :
    (W6 m ρ c (Proc.devRef .tc main_v0) : FVec Ideal S100000x4 .f32)
      = HostValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold HostValue.result
  refine (W6_arr m ρ c 5).trans ((hr2 (V5 m ρ) c).trans ?_)
  rw [show (V5 m ρ c main_call0_v41 : FVec Ideal S100000x128 .f32) = _ from W5_v41_val m ρ c hr0 hr1,
    show (V5 m ρ c main_call0_v14 : FVec Ideal S100000x1 .f32) = _ from W5_v14 m ρ c,
    show (V5 m ρ c main_call0_v16 : FVec Ideal S1x128 .f32) = _ from W5_v16 m ρ c,
    show V5 m ρ c main_arg7 = m ((c : Thread nD τ).loc main_arg7) from W5_arg7 m ρ c,
    show (V5 m ρ c main_call0_v17 : FVec Ideal S1x4 .f32) = _ from W5_v17 m ρ c]

/-- The run with its result as that function: from any memory with zero counters every weakly fair execution of the
    kernel program terminates, nothing faulting, the result buffer holding the result function of the arguments' launch
    contents and every argument buffer its launch contents. -/
theorem run
    (hr0 : ∀ (V : (c : Dev nD) → (b : Ref sig .tc) → Buf (Elt Ideal) ((c : Thread nD τ).loc b)) (c : Dev nD),
      (dat0 (F := Ideal) V c).arrAt 3 cfg0.N = SymNorm.proj (V c main_arg0) (V c main_call0_v11) (V c main_arg3))
    (hr1 : ∀ (V : (c : Dev nD) → (b : Ref sig .tc) → Buf (Elt Ideal) ((c : Thread nD τ).loc b)) (c : Dev nD),
      (dat1 (F := Ideal) V c).arrAt 5 cfg1.N
        = SymNorm.mid (V c main_call0_v29) (V c main_call0_v14) (V c main_call0_v15) (V c main_call0_v11) (V c main_arg5))
    (hr2 : ∀ (V : (c : Dev nD) → (b : Ref sig .tc) → Buf (Elt Ideal) ((c : Thread nD τ).loc b)) (c : Dev nD),
      (dat2 (F := Ideal) V c).arrAt 5 cfg2.N
        = SymNorm.head (V c main_call0_v41) (V c main_call0_v14) (V c main_call0_v16) (V c main_arg7) (V c main_call0_v17)) :
    θ_run defs (onTc (τ := τ) (main (F := Ideal))) ⟨m, fun _ => 0, ρ⟩ (fun r => ∀ c : Dev nD,
      r.2.mem ((c.tc : Thread nD τ).loc main_v0)
        = HostValue.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c hr0 hr1 hr2), (h c).2⟩) (run_out m ρ)

end Value

end Cert.KernelIdeal.RunValue

end
-- ==== Proof.RefValue.lean ====
/-
  The reference program's result as the same function of the arguments as the kernel program's.

  The reference computes each layer as: scale the rows of the node features by the out-degree to the power -1/2, multiply by
  the layer's weights, gather the rows at the edges' sources and scatter-add them at the edges' destinations, scale the
  rows by the in-degree to the power -1/2, add the bias and rectify; then the class weights and the class bias. Its three
  matrix products with what feeds them are the three dense stages of a symmetrically normalised graph convolution
  (projection of scaled features; activation, rescaled and projected; activation projected on the classes), and its
  degree, scale and message-pass computations are, operation for operation, the kernel program's.
-/
import proofs.«135894_j56942676410567_2_alg».proof.ReferenceIdeal
import proofs.«135894_j56942676410567_2_alg».proof.Proof.Gen.ReferenceIdeal
import proofs.«135894_j56942676410567_2_alg».proof.Proof.Gen.ReferenceIdeal.Run
import proofs.«135894_j56942676410567_2_alg».proof.Proof.KernelHostValue
import proofs.«135894_j56942676410567_2_alg».proof.Proof.LibSymNorm

noncomputable section

namespace Cert.ReferenceIdeal.RefValue

open Idealize.ShloMosaic Cert.ReferenceIdeal Cert.ReferenceIdeal.Gen

/-! ## The reference's host pieces, named -/

/-- One per edge. -/
def ones : FVec Ideal S1600000 .f32 := broadcastInDim S1600000 ![] bcast_S_S1600000 (constant S_ .f32 0x3F800000#32)

/-- The number of edges listing each node in `idx`, clipped below at one. -/
def degree (idx : IVec S1600000 32) : FVec Ideal S100000 .f32 :=
  maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx) ones)

/-- The degree to the power -1/2. -/
def scale (idx : IVec S1600000 32) : FVec Ideal S100000 .f32 :=
  Host.powf (degree idx) (broadcastInDim S100000 ![] bcast_S_S100000 (constant S_ .f32 0xBF000000#32))

/-- That scale repeated across the feature columns. -/
def scaleFull (idx : IVec S1600000 32) : FVec Ideal S100000x128 .f32 :=
  broadcastInDim S100000x128 ![0, 1] bcast_S100000x1_S100000x128_0_1 (broadcastInDim S100000x1 ![0] bcast_S100000_S100000x1_0 (scale idx))

/-- A bias repeated down the rows. -/
def biasFull (b : FVec Ideal S128 .f32) : FVec Ideal S100000x128 .f32 :=
  broadcastInDim S100000x128 ![0, 1] bcast_S1x128_S100000x128_0_1 (broadcastInDim S1x128 ![1] bcast_S128_S1x128_1 b)

/-- Zero everywhere. -/
def zeros : FVec Ideal S100000x128 .f32 := broadcastInDim S100000x128 ![] bcast_S_S100000x128 (constant S_ .f32 0x00000000#32)

/-- A negative index wrapped by the node count. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- One message pass: the table's rows gathered at the sources, summed at the destinations. -/
def aggregate (h : FVec Ideal S100000x128 .f32) (src dst : IVec S1600000 32) : FVec Ideal S100000x128 .f32 :=
  Host.scatterAdd scatter_S100000x128_S1600000x1_S1600000x128_1_0_0_1 zeros
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (wrapped src)))

/-- The first layer's table: scaled features times the weights. -/
def table1 (x : FVec Ideal S100000x128 .f32) (src : IVec S1600000 32) (w1 : FVec Ideal S128x128 .f32) : FVec Ideal S100000x128 .f32 :=
  Host.dotGeneral dot_S100000x128_S128x128_S100000x128_1_0_0_1_n_n none (mulf x (scaleFull src)) w1

/-- The second layer's table from the first pass's aggregate. -/
def table2 (agg : FVec Ideal S100000x128 .f32) (src dst : IVec S1600000 32) (b1 : FVec Ideal S128 .f32) (w2 : FVec Ideal S128x128 .f32) :
    FVec Ideal S100000x128 .f32 :=
  Host.dotGeneral dot_S100000x128_S128x128_S100000x128_1_0_0_1_n_n none
    (mulf (maximumf (addf (mulf agg (scaleFull dst)) (biasFull b1)) zeros) (scaleFull src)) w2

/-- The class scores from the second pass's aggregate. -/
def scores (agg : FVec Ideal S100000x128 .f32) (dst : IVec S1600000 32) (b2 : FVec Ideal S128 .f32) (wc : FVec Ideal S128x4 .f32)
    (bc : FVec Ideal S4 .f32) : FVec Ideal S100000x4 .f32 :=
  addf (Host.dotGeneral dot_S100000x128_S128x4_S100000x4_1_0_0_1_n_n none
      (maximumf (addf (mulf agg (scaleFull dst)) (biasFull b2)) zeros) wc)
    (broadcastInDim S100000x4 ![0, 1] bcast_S1x4_S100000x4_0_1 (broadcastInDim S1x4 ![1] bcast_S4_S1x4_1 bc))

/-- The reference's result as one function of its nine arguments. -/
def result (x : FVec Ideal S100000x128 .f32) (src dst : IVec S1600000 32) (w1 : FVec Ideal S128x128 .f32) (b1 : FVec Ideal S128 .f32)
    (w2 : FVec Ideal S128x128 .f32) (b2 : FVec Ideal S128 .f32) (wc : FVec Ideal S128x4 .f32) (bc : FVec Ideal S4 .f32) :
    FVec Ideal S100000x4 .f32 :=
  scores (aggregate (table2 (aggregate (table1 x src w1) src dst) src dst b1 w2) src dst) dst b2 wc bc

end Cert.ReferenceIdeal.RefValue

end

noncomputable section

namespace Cert.ReferenceIdeal.RefValue

open Idealize.ShloMosaic Cert.ReferenceIdeal Cert.ReferenceIdeal.Gen

/-! ## The run's term is the composition of the named pieces -/

/-- The generated run's result term, at the extended reals, is `result` of the launch contents of the nine arguments. -/
theorem res_eq (m : (ℓ : Loc nD τ sig) → Buf (Elt Ideal) ℓ) (c : Dev nD) :
    Cert.ReferenceIdeal.Value.res_main_v71 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v71 result scores table2 table1 aggregate scaleFull biasFull zeros scale degree ones wrapped
  rfl

/-! ## The shared pieces: both programs compute the degrees, the scales and a message pass by the same operations -/

/-- The two programs' scales are one function: the same clipped scatter-add of ones, the same power. -/
theorem scale_eq (idx : IVec S1600000 32) : scale idx = Cert.KernelIdeal.HostValue.scale idx := rfl

/-- The two programs' message passes are one function: the kernel program's table passes through a narrower float format,
    which on the extended reals is the identity. -/
theorem aggregate_eq (h : FVec Ideal S100000x128 .f32) (src dst : IVec S1600000 32) :
    aggregate h src dst = Cert.KernelIdeal.HostValue.aggregate h src dst := rfl

/-! ## The reference's three matrix products are the three dense stages -/

/-- Scaled features times the weights: entry (p, q) is the sum over k of x (p, k) · scale (p) · w (k, q). -/
theorem table1_eq (x : FVec Ideal S100000x128 .f32) (src : IVec S1600000 32) (w1 : FVec Ideal S128x128 .f32) :
    table1 x src w1 = SymNorm.proj x (Cert.KernelIdeal.HostValue.scaleCol src) w1 :=
  SymNorm.proj_host_eq dot_S100000x128_S128x128_S100000x128_1_0_0_1_n_n rfl rfl rfl rfl rfl rfl none x (scale src) w1
    bcast_S100000_S100000x1_0 bcast_S100000x1_S100000x128_0_1 Cert.KernelIdeal.Gen.shapeCasts_S100000_S100000x1

/-- The rectified, rescaled aggregate times the weights: the middle stage. -/
theorem table2_eq (agg : FVec Ideal S100000x128 .f32) (src dst : IVec S1600000 32) (b1 : FVec Ideal S128 .f32)
    (w2 : FVec Ideal S128x128 .f32) :
    table2 agg src dst b1 w2
      = SymNorm.mid agg (Cert.KernelIdeal.HostValue.scaleCol dst)
          (shapeCast Cert.KernelIdeal.S1x128 b1 Cert.KernelIdeal.Gen.shapeCasts_S128_S1x128)
          (Cert.KernelIdeal.HostValue.scaleCol src) w2 :=
  SymNorm.mid_host_eq dot_S100000x128_S128x128_S100000x128_1_0_0_1_n_n rfl rfl rfl rfl rfl rfl none agg (scale dst) b1 (scale src) w2
    bcast_S100000_S100000x1_0 bcast_S100000x1_S100000x128_0_1 bcast_S128_S1x128_1 bcast_S1x128_S100000x128_0_1 bcast_S_S100000x128
    Cert.KernelIdeal.Gen.shapeCasts_S100000_S100000x1 Cert.KernelIdeal.Gen.shapeCasts_S128_S1x128

/-- The rectified aggregate times the class weights, plus the class bias: the class stage. -/
theorem scores_eq (agg : FVec Ideal S100000x128 .f32) (dst : IVec S1600000 32) (b2 : FVec Ideal S128 .f32)
    (wc : FVec Ideal S128x4 .f32) (bc : FVec Ideal S4 .f32) :
    scores agg dst b2 wc bc
      = SymNorm.head agg (Cert.KernelIdeal.HostValue.scaleCol dst)
          (shapeCast Cert.KernelIdeal.S1x128 b2 Cert.KernelIdeal.Gen.shapeCasts_S128_S1x128) wc
          (shapeCast Cert.KernelIdeal.S1x4 bc Cert.KernelIdeal.Gen.shapeCasts_S4_S1x4) :=
  SymNorm.head_host_eq dot_S100000x128_S128x4_S100000x4_1_0_0_1_n_n rfl rfl rfl rfl rfl rfl none agg (scale dst) b2 wc bc
    bcast_S100000_S100000x1_0 bcast_S100000x1_S100000x128_0_1 bcast_S128_S1x128_1 bcast_S1x128_S100000x128_0_1 bcast_S_S100000x128
    bcast_S4_S1x4_1 bcast_S1x4_S100000x4_0_1
    Cert.KernelIdeal.Gen.shapeCasts_S100000_S100000x1 Cert.KernelIdeal.Gen.shapeCasts_S128_S1x128 Cert.KernelIdeal.Gen.shapeCasts_S4_S1x4

/-! ## The two programs compute one function of the arguments -/

/-- Stage by stage: the reference's products are the tiled stages' functions, and what lies between them is shared. -/
theorem result_eq (x : FVec Ideal S100000x128 .f32) (src dst : IVec S1600000 32) (w1 : FVec Ideal S128x128 .f32)
    (b1 : FVec Ideal S128 .f32) (w2 : FVec Ideal S128x128 .f32) (b2 : FVec Ideal S128 .f32) (wc : FVec Ideal S128x4 .f32)
    (bc : FVec Ideal S4 .f32) :
    result x src dst w1 b1 w2 b2 wc bc = Cert.KernelIdeal.HostValue.result x src dst w1 b1 w2 b2 wc bc := by
  unfold result Cert.KernelIdeal.HostValue.result
  rw [scores_eq, table2_eq, table1_eq, aggregate_eq, aggregate_eq]

/-- The generated run's result term is the kernel program's function of the same arguments. -/
theorem ref_value (m : (ℓ : Loc nD τ sig) → Buf (Elt Ideal) ℓ) (c : Dev nD) :
    Cert.ReferenceIdeal.Value.res_main_v71 (F := Ideal) m c
      = Cert.KernelIdeal.HostValue.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) :=
  (res_eq m c).trans (result_eq _ _ _ _ _ _ _ _ _)

end Cert.ReferenceIdeal.RefValue

end
-- ==== Proof.lean ====
/-
  A two-layer graph convolution with symmetric degree normalisation and a linear classifier: the tiled program against
  the plain one, on the extended reals.

  Both programs count each node's out- and in-degree over the edge list (a scatter-add of ones), clip the counts below at
  one and raise them to the power -1/2. A layer scales each node's feature row by its out-degree scale, multiplies by the
  layer's weights, gathers the rows at the edges' sources and sums them at the edges' destinations, scales each row by the
  node's in-degree scale, adds the bias and rectifies; the classifier multiplies by the class weights and adds the class
  bias. The plain program spells the three matrix products as whole-array contractions. The tiled program computes them
  on tiles of 4000 node rows — the projection of the scaled features; the activation of the first aggregate, rescaled
  and projected; the activation of the second aggregate projected on the classes — passing the factors of each product
  through a narrower float format, which on the extended reals is the identity, and keeps the degree computations and the
  two message passes on the host, operation for operation the plain program's.

  So both results are ONE function of the nine arguments: the class stage of the second message pass of the middle stage
  of the first message pass of the projection (`Cert.KernelIdeal.HostValue.result`). Each tile's output row p depends on
  row p of the tile's inputs alone, so the 25 tiles' outputs are the blocks of the whole-array stage function
  (Proof/Region0–2.lean); the tiled program's run leaves its result at that composition (Proof/KernelRun.lean); the plain
  program's products read entry by entry as the same sums (Proof/RefValue.lean over Proof/LibSymNorm.lean). No sum is
  regrouped across an infinity, nothing is distributed or cancelled: the input's finiteness is never used.
-/
import proofs.«135894_j56942676410567_2_alg».proof.Defs
import proofs.«135894_j56942676410567_2_alg».proof.Proof.Gen.Kernel
import proofs.«135894_j56942676410567_2_alg».proof.Proof.KernelFrameP
import proofs.«135894_j56942676410567_2_alg».proof.Proof.Gen.KernelIdeal
import proofs.«135894_j56942676410567_2_alg».proof.Proof.KernelIdealFrameP
import proofs.«135894_j56942676410567_2_alg».proof.Proof.Gen.ReferenceIdeal
import proofs.«135894_j56942676410567_2_alg».proof.Proof.Gen.ReferenceIdeal.Run
import proofs.«135894_j56942676410567_2_alg».proof.Proof.Gen.Pre_finite_inputs
import proofs.«135894_j56942676410567_2_alg».proof.Proof.Region0
import proofs.«135894_j56942676410567_2_alg».proof.Proof.Region1
import proofs.«135894_j56942676410567_2_alg».proof.Proof.Region2
import proofs.«135894_j56942676410567_2_alg».proof.Proof.KernelRun
import proofs.«135894_j56942676410567_2_alg».proof.Proof.RefValue
import Idealize.ShloMosaic.Adequacy
import Idealize.ShloMosaic.Init

noncomputable section

namespace Cert.Proof

open Idealize.ShloMosaic Idealize.SL.Sem

/-- The tiled program as printed terminates without a fault and leaves its arguments as launched. -/
theorem frame_kernel : Cert.frame_Kernel (hKernel := Cert.Kernel.Gen.facts) (hPre_finite_inputs := Cert.Pre_finite_inputs.Gen.facts) :=
  fun m ρ _ => Cert.Kernel.GenP.frame m ρ

/-- The same of its reading on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.GenP.frame m ρ

/-- The plain program's run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the nine arguments both programs end with the result array at one function of them: the
    tiled program's run leaves it there, and the plain program's composed term is that function of its own arguments,
    which are the same. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.HostValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RunValue.run m ρ Cert.KernelIdeal.RegionValue.region0 Cert.KernelIdeal.RegionValue.region1
      Cert.KernelIdeal.RegionValue.region2, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.RefValue.ref_value, e0, e1, e2, e3, e4, e5, e6, e7, e8]

/-- The certificate: three frames, the idealisation (the ideal pass rewrote nothing, so there is nothing to preserve), and
    the equality of the two results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
